-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x40000 : Shape := ⟨2, ![2048, 40000]⟩
abbrev S2048x80000 : Shape := ⟨2, ![2048, 80000]⟩
abbrev S2048x2 : Shape := ⟨2, ![2048, 2]⟩
abbrev S2048x22 : Shape := ⟨2, ![2048, 22]⟩
abbrev S22x256 : Shape := ⟨2, ![22, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1 : Shape := ⟨1, ![1]⟩
abbrev S_ : Shape := ⟨0, ![]⟩

class Facts : Prop where
  bcast_S_S2048x40000 : S_.BroadcastsInDim S2048x40000 (![] : Fin 0 → Fin S2048x40000.rank)
  reducesTo_S2048x40000_S_d0_1 : S2048x40000.ReducesTo [0, 1] S_
  h_S_ : 0 < S_.numel
  bcast_S_S2048x80000 : S_.BroadcastsInDim S2048x80000 (![] : Fin 0 → Fin S2048x80000.rank)
  reducesTo_S2048x80000_S_d0_1 : S2048x80000.ReducesTo [0, 1] S_
  bcast_S_S2048x2 : S_.BroadcastsInDim S2048x2 (![] : Fin 0 → Fin S2048x2.rank)
  reducesTo_S2048x2_S_d0_1 : S2048x2.ReducesTo [0, 1] S_
  bcast_S_S2048x22 : S_.BroadcastsInDim S2048x22 (![] : Fin 0 → Fin S2048x22.rank)
  reducesTo_S2048x22_S_d0_1 : S2048x22.ReducesTo [0, 1] S_
  bcast_S_S22x256 : S_.BroadcastsInDim S22x256 (![] : Fin 0 → Fin S22x256.rank)
  reducesTo_S22x256_S_d0_1 : S22x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256x256 .f32) (main_arg8 : FVec F S256 .f32) (main_arg9 : FVec F S256x2 .f32) (main_arg10 : FVec F S2 .f32) (main_arg11 : FVec F S1 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x2 .f32 := Host.absf main_arg9
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_arg11 main_v48 main_v49 main_v50

def fn_part1 {F : FTy → Type} [FloatOps F] (main_arg4 : FVec F S2048x22 .f32) (main_arg5 : FVec F S22x256 .f32) (main_arg6 : FVec F S256 .f32) (main_arg7 : FVec F S256x256 .f32) (main_arg8 : FVec F S256 .f32) (main_arg9 : FVec F S256x2 .f32) (main_arg10 : FVec F S2 .f32) (main_arg11 : FVec F S1 .f32) (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  let main_v19 : FVec F S2048x22 .f32 := Host.absf main_arg4
  let main_cst_6 : FVec F S_ .f32 := constant S_ .f32 0x7F800000#32
  let main_v20 : FVec F S2048x22 .f32 := broadcastInDim S2048x22 ![] bcast_S_S2048x22 main_cst_6
  let main_v21 : IVec S2048x22 1 := cmpf .olt main_v19 main_v20
  let main_c_7 : IVec S_ 1 := constantI S_ 1 1#1
  let main_v22 : IVec S_ 1 := (fun x v => Host.reduce IntOp.andi x v reducesTo_S2048x22_S_d0_1 h_S_) main_v21 main_c_7
  let main_v23 : IVec S_ 1 := andi main_v18 main_v22
  let main_v24 : FVec F S22x256 .f32 := Host.absf main_arg5
  let main_cst_8 : FVec F S_ .f32 := constant S_ .f32 0x7F800000#32
  let main_v25 : FVec F S22x256 .f32 := broadcastInDim S22x256 ![] bcast_S_S22x256 main_cst_8
  let main_v26 : IVec S22x256 1 := cmpf .olt main_v24 main_v25
  let main_c_9 : IVec S_ 1 := constantI S_ 1 1#1
  let main_v27 : IVec S_ 1 := (fun x v => Host.reduce IntOp.andi x v reducesTo_S22x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x40000 .f32) (main_arg1 : FVec F S2048x80000 .f32) (main_arg2 : FVec F S2048x2 .f32) (main_arg3 : FVec F S2048x2 .f32) (main_arg4 : FVec F S2048x22 .f32) (main_arg5 : FVec F S22x256 .f32) (main_arg6 : FVec F S256 .f32) (main_arg7 : FVec F S256x256 .f32) (main_arg8 : FVec F S256 .f32) (main_arg9 : FVec F S256x2 .f32) (main_arg10 : FVec F S2 .f32) (main_arg11 : FVec F S1 .f32) : IVec S_ 1 :=
  let main_v0 : FVec F S2048x40000 .f32 := Host.absf main_arg0
  let main_cst : FVec F S_ .f32 := constant S_ .f32 0x7F800000#32
  let main_v1 : FVec F S2048x40000 .f32 := broadcastInDim S2048x40000 ![] bcast_S_S2048x40000 main_cst
  let main_v2 : IVec S2048x40000 1 := cmpf .olt main_v0 main_v1
  let main_c : IVec S_ 1 := constantI S_ 1 1#1
  let main_v3 : IVec S_ 1 := (fun x v => Host.reduce IntOp.andi x v reducesTo_S2048x40000_S_d0_1 h_S_) main_v2 main_c
  let main_v4 : FVec F S2048x80000 .f32 := Host.absf main_arg1
  let main_cst_0 : FVec F S_ .f32 := constant S_ .f32 0x7F800000#32
  let main_v5 : FVec F S2048x80000 .f32 := broadcastInDim S2048x80000 ![] bcast_S_S2048x80000 main_cst_0
  let main_v6 : IVec S2048x80000 1 := cmpf .olt main_v4 main_v5
  let main_c_1 : IVec S_ 1 := constantI S_ 1 1#1
  let main_v7 : IVec S_ 1 := (fun x v => Host.reduce IntOp.andi x v reducesTo_S2048x80000_S_d0_1 h_S_) main_v6 main_c_1
  let main_v8 : IVec S_ 1 := andi main_v3 main_v7
  let main_v9 : FVec F S2048x2 .f32 := Host.absf main_arg2
  let main_cst_2 : FVec F S_ .f32 := constant S_ .f32 0x7F800000#32
  let main_v10 : FVec F S2048x2 .f32 := broadcastInDim S2048x2 ![] bcast_S_S2048x2 main_cst_2
  let main_v11 : IVec S2048x2 1 := cmpf .olt main_v9 main_v10
  let main_c_3 : IVec S_ 1 := constantI S_ 1 1#1
  let main_v12 : IVec S_ 1 := (fun x v => Host.reduce IntOp.andi x v reducesTo_S2048x2_S_d0_1 h_S_) main_v11 main_c_3
  let main_v13 : IVec S_ 1 := andi main_v8 main_v12
  let main_v14 : FVec F S2048x2 .f32 := Host.absf main_arg3
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_arg4 main_arg5 main_arg6 main_arg7 main_arg8 main_arg9 main_arg10 main_arg11 main_v13 main_v16
-- ==== Kernel.lean ====
abbrev S2048x40000 : Shape := ⟨2, ![2048, 40000]⟩
abbrev S2048x80000 : Shape := ⟨2, ![2048, 80000]⟩
abbrev S2048x2 : Shape := ⟨2, ![2048, 2]⟩
abbrev S2048x22 : Shape := ⟨2, ![2048, 22]⟩
abbrev S22x256 : Shape := ⟨2, ![22, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1 : Shape := ⟨1, ![1]⟩
abbrev S2048x1 : Shape := ⟨2, ![2048, 1]⟩
abbrev S2048x256 : Shape := ⟨2, ![2048, 256]⟩
abbrev S1x256 : Shape := ⟨2, ![1, 256]⟩
abbrev S1x2 : Shape := ⟨2, ![1, 2]⟩
abbrev S32x40000 : Shape := ⟨2, ![32, 40000]⟩
abbrev S32x1 : Shape := ⟨2, ![32, 1]⟩
abbrev S32 : Shape := ⟨1, ![32]⟩
abbrev S1x1 : Shape := ⟨2, ![1, 1]⟩

abbrev nBuf : Space → Nat
  | .hbm => 14
  | .vmem => 17
  | .smem => 0
  | _ => 0

abbrev bufTy : (tb : Table) → Fin (tcTables nBuf tb) → BufTy
  | .hbm, ⟨0, _⟩ => ⟨S2048x40000, .f32⟩
  | .hbm, ⟨1, _⟩ => ⟨S2048x80000, .f32⟩
  | .hbm, ⟨2, _⟩ => ⟨S2048x2, .f32⟩
  | .hbm, ⟨3, _⟩ => ⟨S2048x2, .f32⟩
  | .hbm, ⟨4, _⟩ => ⟨S2048x22, .f32⟩
  | .hbm, ⟨5, _⟩ => ⟨S22x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x2, .f32⟩
  | .hbm, ⟨10, _⟩ => ⟨S2, .f32⟩
  | .hbm, ⟨11, _⟩ => ⟨S1, .f32⟩
  | .hbm, ⟨12, _⟩ => ⟨S2048x1, .i32⟩
  | .hbm, ⟨13, _⟩ => ⟨S2048x1, .f32⟩
  | .local _ .vmem, ⟨0, _⟩ => ⟨S2048x22, .f32⟩
  | .local _ .vmem, ⟨1, _⟩ => ⟨S22x256, .f32⟩
  | .local _ .vmem, ⟨2, _⟩ => ⟨S256, .f32⟩
  | .local _ .vmem, ⟨3, _⟩ => ⟨S256x256, .f32⟩
  | .local _ .vmem, ⟨4, _⟩ => ⟨S256, .f32⟩
  | .local _ .vmem, ⟨5, _⟩ => ⟨S256x2, .f32⟩
  | .local _ .vmem, ⟨6, _⟩ => ⟨S2, .f32⟩
  | .local _ .vmem, ⟨7, _⟩ => ⟨S2048x2, .f32⟩
  | .local _ .vmem, ⟨8, _⟩ => ⟨S2048x2, .f32⟩
  | .local _ .vmem, ⟨9, _⟩ => ⟨S2048x1, .i32⟩
  | .local _ .vmem, ⟨10, _⟩ => ⟨S32x40000, .f32⟩
  | .local _ .vmem, ⟨11, _⟩ => ⟨S32x40000, .f32⟩
  | .local _ .vmem, ⟨12, _⟩ => ⟨S32x1, .i32⟩
  | .local _ .vmem, ⟨13, _⟩ => ⟨S32x1, .i32⟩
  | .local _ .vmem, ⟨14, _⟩ => ⟨S1, .f32⟩
  | .local _ .vmem, ⟨15, _⟩ => ⟨S32x1, .f32⟩
  | .local _ .vmem, ⟨16, _⟩ => ⟨S32x1, .f32⟩
  | _, _ => ⟨S2048x40000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x22 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S22x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x40000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2048x22_S2048x22_0_0 : ∀ a, (![0, 0] : Fin 2 → Nat) a + S2048x22.size a ≤ S2048x22.size a
  h_S2048x22 : 0 < S2048x22.numel
  bitsLt_bf16_f32 : FTy.bits .bf16 < FTy.bits .f32
  inb_S22x256_S22x256_0_0 : ∀ a, (![0, 0] : Fin 2 → Nat) a + S22x256.size a ≤ S22x256.size a
  h_S22x256 : 0 < S22x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  slices_S2048x2_o0_0_S2048x1 : S2048x2.Slices ![0, 0] S2048x1
  slices_S2048x2_o0_1_S2048x1 : S2048x2.Slices ![0, 1] S2048x1
  inb_S2048x1_S2048x1_0_0 : ∀ a, (![0, 0] : Fin 2 → Nat) a + S2048x1.size a ≤ S2048x1.size a
  h_S2048x1 : 0 < S2048x1.numel
  inb_S32x40000_S32x40000_0_0 : ∀ a, (![0, 0] : Fin 2 → Nat) a + S32x40000.size a ≤ S32x40000.size a
  h_S32x40000 : 0 < S32x40000.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x40000_d1_w32 : S32x40000.Iotas .tc 32 [1]
  broadcasts_S32x1_S32x40000 : S32x1.Broadcasts S32x40000
  reduces_S32x40000_S32 : S32x40000.Reduces [1] S32
  shapeCasts_S32_S32x1 : S32.ShapeCasts S32x1
  inb_S1_S1_0 : ∀ a, (![0] : Fin 1 → Nat) a + S1.size a ≤ S1.size a
  h_S1 : 0 < S1.numel
  shapeCasts_S1_S1x1 : S1.ShapeCasts S1x1
  broadcasts_S1x1_S32x1 : S1x1.Broadcasts S32x1
  dot_S2048x22_S22x256_S2048x256_1_0_0_1_n_n_wf : DotDims.WF S2048x22 S22x256 S2048x256 [1] [0] [0] [1] [] []
  dot_S2048x256_S256x256_S2048x256_1_0_0_1_n_n_wf : DotDims.WF S2048x256 S256x256 S2048x256 [1] [0] [0] [1] [] []
  dot_S2048x256_S256x2_S2048x2_1_0_0_1_n_n_wf : DotDims.WF S2048x256 S256x2 S2048x2 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x22.size a ≤ S2048x22.size a
  hwx0_0 : ∀ i : grid0.Coords, EltTy.bits .f32 = 32 ∨ (Rect.block (s := S2048x22) S2048x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x256.size a ≤ S22x256.size a
  hwx0_1 : ∀ i : grid0.Coords, EltTy.bits .f32 = 32 ∨ (Rect.block (s := S22x256) S22x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S256x2.size a
  hwx0_5 : ∀ i : grid0.Coords, EltTy.bits .f32 = 32 ∨ (Rect.block (s := S256x2) S256x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2.size a ≤ S2048x2.size a
  hwx0_7 : ∀ i : grid0.Coords, EltTy.bits .f32 = 32 ∨ (Rect.block (s := S2048x2) S2048x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2.size a ≤ S2048x2.size a
  hwx0_8 : ∀ i : grid0.Coords, EltTy.bits .f32 = 32 ∨ (Rect.block (s := S2048x2) S2048x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S2048x1.size a
  hwx0_9 : ∀ i : grid0.Coords, EltTy.bits .i32 = 32 ∨ (Rect.block (s := S2048x1) S2048x1.size (cc0_transform_9 i) (hinb0_9 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x40000.size a ≤ S2048x40000.size a
  hwx1_0 : ∀ i : grid1.Coords, EltTy.bits .f32 = 32 ∨ (Rect.block (s := S2048x40000) S32x40000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S2048x1.size a
  hwx1_1 : ∀ i : grid1.Coords, EltTy.bits .i32 = 32 ∨ (Rect.block (s := S2048x1) S32x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S2048x1.size a
  hwx1_3 : ∀ i : grid1.Coords, EltTy.bits .f32 = 32 ∨ (Rect.block (s := S2048x1) S32x1.size (cc1_transform_3 i) (hinb1_3 i)).WholeWords (EltTy.packing .f32)

variable [Facts₀]

def dot_S2048x22_S22x256_S2048x256_1_0_0_1_n_n : DotDims S2048x22 S22x256 S2048x256 where
  lhsContracting := [1]
  rhsContracting := [0]
  lhsNonContracting := [0]
  rhsNonContracting := [1]
  lhsBatch := []
  rhsBatch := []
  wf := dot_S2048x22_S22x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf

abbrev win0_0 : Pipeline.Window sig grid0 :=
  Pipeline.Window.ofSpec (Memref.whole main_arg4) S2048x22.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S22x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S2048x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S2048x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S2048x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S32x40000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S32x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x40000 : Shape := ⟨2, ![2048, 40000]⟩
abbrev S2048x80000 : Shape := ⟨2, ![2048, 80000]⟩
abbrev S2048x2 : Shape := ⟨2, ![2048, 2]⟩
abbrev S2048x22 : Shape := ⟨2, ![2048, 22]⟩
abbrev S22x256 : Shape := ⟨2, ![22, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1 : Shape := ⟨1, ![1]⟩
abbrev S2048x256 : Shape := ⟨2, ![2048, 256]⟩
abbrev S1x256 : Shape := ⟨2, ![1, 256]⟩
abbrev S1x2 : Shape := ⟨2, ![1, 2]⟩
abbrev S2048x1 : Shape := ⟨2, ![2048, 1]⟩
abbrev S2048 : Shape := ⟨1, ![2048]⟩
abbrev S_ : Shape := ⟨0, ![]⟩
abbrev S2048x1x1 : Shape := ⟨3, ![2048, 1, 1]⟩
abbrev S1x1x1 : Shape := ⟨3, ![1, 1, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S2048x40000, .f32⟩
  | .hbm, ⟨1, _⟩ => ⟨S2048x80000, .f32⟩
  | .hbm, ⟨2, _⟩ => ⟨S2048x2, .f32⟩
  | .hbm, ⟨3, _⟩ => ⟨S2048x2, .f32⟩
  | .hbm, ⟨4, _⟩ => ⟨S2048x22, .f32⟩
  | .hbm, ⟨5, _⟩ => ⟨S22x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x2, .f32⟩
  | .hbm, ⟨10, _⟩ => ⟨S2, .f32⟩
  | .hbm, ⟨11, _⟩ => ⟨S1, .f32⟩
  | .hbm, ⟨12, _⟩ => ⟨S2048x256, .f32⟩
  | .hbm, ⟨13, _⟩ => ⟨S1x256, .f32⟩
  | .hbm, ⟨14, _⟩ => ⟨S2048x256, .f32⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S1x256, .f32⟩
  | .hbm, ⟨19, _⟩ => ⟨S2048x256, .f32⟩
  | .hbm, ⟨20, _⟩ => ⟨S2048x256, .f32⟩
  | .hbm, ⟨21, _⟩ => ⟨S2048x256, .f32⟩
  | .hbm, ⟨22, _⟩ => ⟨S2048x2, .f32⟩
  | .hbm, ⟨23, _⟩ => ⟨S1x2, .f32⟩
  | .hbm, ⟨24, _⟩ => ⟨S2048x2, .f32⟩
  | .hbm, ⟨25, _⟩ => ⟨S2048x2, .f32⟩
  | .hbm, ⟨26, _⟩ => ⟨S2048x2, .f32⟩
  | .hbm, ⟨27, _⟩ => ⟨S2048x2, .f32⟩
  | .hbm, ⟨28, _⟩ => ⟨S2048x2, .f32⟩
  | .hbm, ⟨29, _⟩ => ⟨S2048x2, .i32⟩
  | .hbm, ⟨30, _⟩ => ⟨S2048x1, .i32⟩
  | .hbm, ⟨31, _⟩ => ⟨S2048, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048x1, .i32⟩
  | .hbm, ⟨41, _⟩ => ⟨S2048, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .i32⟩
  | .hbm, ⟨54, _⟩ => ⟨S2048x1, .i32⟩
  | .hbm, ⟨55, _⟩ => ⟨S_, .i32⟩
  | .hbm, ⟨56, _⟩ => ⟨S2048x1, .i32⟩
  | .hbm, ⟨57, _⟩ => ⟨S2048x1, .i1⟩
  | .hbm, ⟨58, _⟩ => ⟨S_, .i32⟩
  | .hbm, ⟨59, _⟩ => ⟨S2048x1, .i32⟩
  | .hbm, ⟨60, _⟩ => ⟨S2048x1, .i32⟩
  | .hbm, ⟨61, _⟩ => ⟨S2048x1, .i32⟩
  | .hbm, ⟨62, _⟩ => ⟨S2048x1x1, .i32⟩
  | .hbm, ⟨63, _⟩ => ⟨S1, .i32⟩
  | .hbm, ⟨64, _⟩ => ⟨S_, .i32⟩
  | .hbm, ⟨65, _⟩ => ⟨S2048x1x1, .i32⟩
  | .hbm, ⟨66, _⟩ => ⟨S2048x1x1, .i1⟩
  | .hbm, ⟨67, _⟩ => ⟨S1x1x1, .i32⟩
  | .hbm, ⟨68, _⟩ => ⟨S2048x1x1, .i32⟩
  | .hbm, ⟨69, _⟩ => ⟨S2048x1x1, .i1⟩
  | .hbm, ⟨70, _⟩ => ⟨S2048x1x1, .i1⟩
  | .hbm, ⟨71, _⟩ => ⟨S_, .i1⟩
  | .hbm, ⟨72, _⟩ => ⟨S2048x1, .i1⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S2048x1, .f32⟩
  | .hbm, ⟨78, _⟩ => ⟨S1x1, .f32⟩
  | .hbm, ⟨79, _⟩ => ⟨S2048x1, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | _, _ => ⟨S2048x40000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_1 : Ref sig .tc := ⟨.hbm, 42, rfl⟩
abbrev main_c_2 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v23 : Ref sig .tc := ⟨.hbm, 49, rfl⟩
abbrev main_c_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_cst : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_4 : Ref sig .tc := ⟨.hbm, 86, rfl⟩
abbrev main_v37 : Ref sig .tc := ⟨.hbm, 87, rfl⟩
abbrev main_v38 : Ref sig .tc := ⟨.hbm, 88, rfl⟩
abbrev main_cst_5 : Ref sig .tc := ⟨.hbm, 89, rfl⟩
abbrev main_v39 : Ref sig .tc := ⟨.hbm, 90, rfl⟩
abbrev main_v40 : Ref sig .tc := ⟨.hbm, 91, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  slices_S2048x2_S2048x1_0_1 : S2048x2.Slices ![0, 1] S2048x1
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  h_S_ : 0 < S_.numel
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S2048x22_S22x256_S2048x256_1_0_0_1_n_n_wf : DotDims.WF S2048x22 S22x256 S2048x256 [1] [0] [0] [1] [] []
  dot_S2048x256_S256x256_S2048x256_1_0_0_1_n_n_wf : DotDims.WF S2048x256 S256x256 S2048x256 [1] [0] [0] [1] [] []
  dot_S2048x256_S256x2_S2048x2_1_0_0_1_n_n_wf : DotDims.WF S2048x256 S256x2 S2048x2 [1] [0] [0] [1] [] []
  gather_S2048x40000_S2048x1x1_S2048x1_n_1_0_0_1_2_11_wf : GatherDims.WF S2048x40000 S2048x1x1 S2048x1 [] [1] [0] [1] [0] 2 ![1, 1]

variable [Facts₀]

def dot_S2048x22_S22x256_S2048x256_1_0_0_1_n_n : DotDims S2048x22 S22x256 S2048x256 where
  lhsContracting := [1]
  rhsContracting := [0]
  lhsNonContracting := [0]
  rhsNonContracting := [1]
  lhsBatch := []
  rhsBatch := []
  wf := dot_S2048x22_S22x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x2_S2048x2_1_0_0_1_n_n : DotDims S2048x256 S256x2 S2048x2 where
  lhsContracting := [1]
  rhsContracting := [0]
  lhsNonContracting := [0]
  rhsNonContracting := [1]
  lhsBatch := []
  rhsBatch := []
  wf := dot_S2048x256_S256x2_S2048x2_1_0_0_1_n_n_wf
def gather_S2048x40000_S2048x1x1_S2048x1_n_1_0_0_1_2_11 : GatherDims S2048x40000 S2048x1x1 S2048x1 where
  offsetDims := []
  collapsedSliceDims := [1]
  operandBatchingDims := [0]
  startIndicesBatchingDims := [0]
  startIndexMap := [1]
  indexVectorDim := 2
  sliceSizes := ![1, 1]
  wf := gather_S2048x40000_S2048x1x1_S2048x1_n_1_0_0_1_2_11_wf

class Facts : Prop extends Facts₀ where

variable [Facts]
-- ==== Proof.KernelRun.lean ====
/-
  The idealized kernel's run, with its result named. The program is two kernel launches in a row: the first
  computes, for every row, the flat cell number of the row's query point and writes the 2048 numbers to an
  intermediate array; the second reads that array beside the distance table and writes the result. Every weakly
  fair execution terminates without a fault; the result array ends at what the second launch's write-backs leave
  (the last of the buffer contents the two launches step through), and no argument array is written.
-/
import proofs.«173205_j69423851372992_1_alg».proof.Proof.Gen.KernelIdeal.Frame

-- membership in a rectangle of production extents (`View.cover_of_tiled`): the elaborator's structural look
-- recurses once per coordinate of the long axes
set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two launches terminates, nothing faulting; the result array then holds the
    contents the second launch leaves and every argument array its launch contents. -/
theorem run_result : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c),
       (h c _ (mem_uc main_arg10 (by decide))).trans (W2_main_arg10 m ρ c),
       (h c _ (mem_uc main_arg11 (by decide))).trans (W2_main_arg11 m ρ c)⟩)

end Cert.KernelIdeal.ValueRun

end
-- ==== Proof.Blocks.lean ====
/-
  From blocks to arrays, for both launches, at any contents `V` of the buffers when the launch is entered.
  The first launch has one grid point and every window's block is its whole array, so the intermediate array ends at
  the body's stored words of the argument arrays. The second launch has 64 grid points; point `t` reads rows
  32 t … 32 t + 31 of the distance table and of the intermediate array (the bias whole) and writes rows
  32 t … 32 t + 31 of the result; the blocks tile the 2048 rows (row `r` lies in block `r / 32`), so the result array
  ends at any function `G` of the row that every block's stored value agrees with.
-/
import proofs.«173205_j69423851372992_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first launch: one point, whole arrays -/

/-- Every window of the first launch sits at block (0, …, 0) at its one grid point. -/
theorem index0 : ∀ t : Fin cfg0.N,
    (win0_0.index t 0 = 0 ∧ win0_0.index t 1 = 0) ∧ (win0_1.index t 0 = 0 ∧ win0_1.index t 1 = 0)
    ∧ win0_2.index t 0 = 0 ∧ (win0_3.index t 0 = 0 ∧ win0_3.index t 1 = 0) ∧ win0_4.index t 0 = 0
    ∧ (win0_5.index t 0 = 0 ∧ win0_5.index t 1 = 0) ∧ win0_6.index t 0 = 0
    ∧ (win0_7.index t 0 = 0 ∧ win0_7.index t 1 = 0) ∧ (win0_8.index t 0 = 0 ∧ win0_8.index t 1 = 0)
    ∧ (win0_9.index t 0 = 0 ∧ win0_9.index t 1 = 0) :=
  (by decide +kernel : ∀ t : Fin grid0.N, _)

theorem iblk0_0 (c : Dev nD) (t : Fin cfg0.N) : (iblk0 V c 0 t : Vec F S2048x22 .f32) = (V c main_arg4 : S2048x22.Idx → Elt F .f32) := by
  obtain ⟨⟨e0, e1⟩, -⟩ := index0 t
  funext y
  unfold iblk0
  rw [View.read_apply]
  show V c main_arg4 _ = V c main_arg4 y
  congr 1
  funext a; apply Fin.ext
  match a with
  | ⟨0, _⟩ => show win0_0.index t 0 * 2048 + 1 * (y 0).val = (y 0).val; rw [e0]; omega
  | ⟨1, _⟩ => show win0_0.index t 1 * 22 + 1 * (y 1).val = (y 1).val; rw [e1]; omega

theorem iblk0_1 (c : Dev nD) (t : Fin cfg0.N) : (iblk0 V c 1 t : Vec F S22x256 .f32) = (V c main_arg5 : S22x256.Idx → Elt F .f32) := by
  obtain ⟨-, ⟨e0, e1⟩, -⟩ := index0 t
  funext y
  unfold iblk0
  rw [View.read_apply]
  show V c main_arg5 _ = V c main_arg5 y
  congr 1
  funext a; apply Fin.ext
  match a with
  | ⟨0, _⟩ => show win0_1.index t 0 * 22 + 1 * (y 0).val = (y 0).val; rw [e0]; omega
  | ⟨1, _⟩ => show win0_1.index t 1 * 256 + 1 * (y 1).val = (y 1).val; rw [e1]; omega

theorem iblk0_2 (c : Dev nD) (t : Fin cfg0.N) : (iblk0 V c 2 t : Vec F S256 .f32) = (V c main_arg6 : S256.Idx → Elt F .f32) := by
  obtain ⟨-, -, e0, -⟩ := index0 t
  funext y
  unfold iblk0
  rw [View.read_apply]
  show V c main_arg6 _ = V c main_arg6 y
  congr 1
  funext a; apply Fin.ext
  match a with
  | ⟨0, _⟩ => show win0_2.index t 0 * 256 + 1 * (y 0).val = (y 0).val; rw [e0]; omega

theorem iblk0_3 (c : Dev nD) (t : Fin cfg0.N) : (iblk0 V c 3 t : Vec F S256x256 .f32) = (V c main_arg7 : S256x256.Idx → Elt F .f32) := by
  obtain ⟨-, -, -, ⟨e0, e1⟩, -⟩ := index0 t
  funext y
  unfold iblk0
  rw [View.read_apply]
  show V c main_arg7 _ = V c main_arg7 y
  congr 1
  funext a; apply Fin.ext
  match a with
  | ⟨0, _⟩ => show win0_3.index t 0 * 256 + 1 * (y 0).val = (y 0).val; rw [e0]; omega
  | ⟨1, _⟩ => show win0_3.index t 1 * 256 + 1 * (y 1).val = (y 1).val; rw [e1]; omega

theorem iblk0_4 (c : Dev nD) (t : Fin cfg0.N) : (iblk0 V c 4 t : Vec F S256 .f32) = (V c main_arg8 : S256.Idx → Elt F .f32) := by
  obtain ⟨-, -, -, -, e0, -⟩ := index0 t
  funext y
  unfold iblk0
  rw [View.read_apply]
  show V c main_arg8 _ = V c main_arg8 y
  congr 1
  funext a; apply Fin.ext
  match a with
  | ⟨0, _⟩ => show win0_4.index t 0 * 256 + 1 * (y 0).val = (y 0).val; rw [e0]; omega

theorem iblk0_5 (c : Dev nD) (t : Fin cfg0.N) : (iblk0 V c 5 t : Vec F S256x2 .f32) = (V c main_arg9 : S256x2.Idx → Elt F .f32) := by
  obtain ⟨-, -, -, -, -, ⟨e0, e1⟩, -⟩ := index0 t
  funext y
  unfold iblk0
  rw [View.read_apply]
  show V c main_arg9 _ = V c main_arg9 y
  congr 1
  funext a; apply Fin.ext
  match a with
  | ⟨0, _⟩ => show win0_5.index t 0 * 256 + 1 * (y 0).val = (y 0).val; rw [e0]; omega
  | ⟨1, _⟩ => show win0_5.index t 1 * 2 + 1 * (y 1).val = (y 1).val; rw [e1]; omega

theorem iblk0_6 (c : Dev nD) (t : Fin cfg0.N) : (iblk0 V c 6 t : Vec F S2 .f32) = (V c main_arg10 : S2.Idx → Elt F .f32) := by
  obtain ⟨-, -, -, -, -, -, e0, -⟩ := index0 t
  funext y
  unfold iblk0
  rw [View.read_apply]
  show V c main_arg10 _ = V c main_arg10 y
  congr 1
  funext a; apply Fin.ext
  match a with
  | ⟨0, _⟩ => show win0_6.index t 0 * 2 + 1 * (y 0).val = (y 0).val; rw [e0]; omega

theorem iblk0_7 (c : Dev nD) (t : Fin cfg0.N) : (iblk0 V c 7 t : Vec F S2048x2 .f32) = (V c main_arg2 : S2048x2.Idx → Elt F .f32) := by
  obtain ⟨-, -, -, -, -, -, -, ⟨e0, e1⟩, -⟩ := index0 t
  funext y
  unfold iblk0
  rw [View.read_apply]
  show V c main_arg2 _ = V c main_arg2 y
  congr 1
  funext a; apply Fin.ext
  match a with
  | ⟨0, _⟩ => show win0_7.index t 0 * 2048 + 1 * (y 0).val = (y 0).val; rw [e0]; omega
  | ⟨1, _⟩ => show win0_7.index t 1 * 2 + 1 * (y 1).val = (y 1).val; rw [e1]; omega

theorem iblk0_8 (c : Dev nD) (t : Fin cfg0.N) : (iblk0 V c 8 t : Vec F S2048x2 .f32) = (V c main_arg3 : S2048x2.Idx → Elt F .f32) := by
  obtain ⟨-, -, -, -, -, -, -, -, ⟨e0, e1⟩, -⟩ := index0 t
  funext y
  unfold iblk0
  rw [View.read_apply]
  show V c main_arg3 _ = V c main_arg3 y
  congr 1
  funext a; apply Fin.ext
  match a with
  | ⟨0, _⟩ => show win0_8.index t 0 * 2048 + 1 * (y 0).val = (y 0).val; rw [e0]; omega
  | ⟨1, _⟩ => show win0_8.index t 1 * 2 + 1 * (y 1).val = (y 1).val; rw [e1]; omega

/-- The words the first body stores, of the argument arrays as the launch finds them. -/
abbrev idxWords (c : Dev nD) : S2048x1.Idx → Elt F .i32 :=
  k0_pay1 (k0_pay3 (V c main_arg4) (V c main_arg5) (V c main_arg6) (V c main_arg7) (V c main_arg8) (V c main_arg9) (V c main_arg10) (V c main_arg2) (V c main_arg3))
    (k0_pay4 (V c main_arg4) (V c main_arg5) (V c main_arg6) (V c main_arg7) (V c main_arg8) (V c main_arg9) (V c main_arg10) (V c main_arg2) (V c main_arg3))

/-- What the one point writes back is the whole array of stored words. -/
theorem flushed0 (c : Dev nD) (t : Fin cfg0.N) :
    (dat0 V c).flushed 9 t = ((cfg0.win 9).blk t).view.read (Elt F) (idxWords V c) := by
  show (cfg0.win 9).cut (grid0.coords t) ((dat0 V c).after 9 t) = _
  rw [after0_9]
  unfold out0_9
  rw [View.canon_unit_zero hz2]
  simp only [View.ld_unit_zero (S := S2048x22) hz2, View.ld_unit_zero (S := S22x256) hz2, View.ld_unit_zero (S := S256) hz1,
    View.ld_unit_zero (S := S256x256) hz2, View.ld_unit_zero (S := S256x2) hz2, View.ld_unit_zero (S := S2) hz1,
    View.ld_unit_zero (S := S2048x2) hz2]
  rw [iblk0_0, iblk0_1, iblk0_2, iblk0_3, iblk0_4, iblk0_5, iblk0_6, iblk0_7, iblk0_8]
  obtain ⟨-, -, -, -, -, -, -, -, -, e0, e1⟩ := index0 t
  funext y
  show idxWords V c y = idxWords V c (((cfg0.win 9).blk t).view.emb y)
  congr 1
  funext a; apply Fin.ext
  match a with
  | ⟨0, _⟩ => show (y 0).val = win0_9.index t 0 * 2048 + 1 * (y 0).val; rw [e0]; omega
  | ⟨1, _⟩ => show (y 1).val = win0_9.index t 1 * 1 + 1 * (y 1).val; rw [e1]; omega

/-- The intermediate array after the first launch: the stored words. -/
theorem final0 (c : Dev nD) : (dat0 V c).arrAt 9 cfg0.N = idxWords V c :=
  (dat0 V c).arrAt_eq_of_cover 9 (idxWords V c) (fun t _ => flushed0 V c t) fun i =>
    ⟨t0_0, flush0_9 t0_0, by
      obtain ⟨-, -, -, -, -, -, -, -, -, e0, e1⟩ := index0 t0_0
      show i ∈ ((View.whole main_v0).slice (win0_9.rect t0_0)).set
      rw [View.set_slice_whole, Rect.mem_set_unit]
      intro a
      have h0 : (i 0 : Nat) < 2048 := (i 0).isLt
      have h1 : (i 1 : Nat) < 1 := (i 1).isLt
      match a with
      | ⟨0, _⟩ => show win0_9.index t0_0 0 * 2048 ≤ (i 0 : Nat) ∧ (i 0 : Nat) < win0_9.index t0_0 0 * 2048 + 2048; rw [e0]; omega
      | ⟨1, _⟩ => show win0_9.index t0_0 1 * 1 ≤ (i 1 : Nat) ∧ (i 1 : Nat) < win0_9.index t0_0 1 * 1 + 1; rw [e1]; omega⟩

/-! ## The second launch: 64 points, 32 rows each -/

/-- Point `t` of the second launch reads and writes block row `t`; the bias stays at block 0. -/
theorem index1 : ∀ t : Fin cfg1.N,
    (win1_0.index t 0 = t.val ∧ win1_0.index t 1 = 0) ∧ (win1_1.index t 0 = t.val ∧ win1_1.index t 1 = 0)
    ∧ win1_2.index t 0 = 0 ∧ (win1_3.index t 0 = t.val ∧ win1_3.index t 1 = 0) :=
  (by decide +kernel : ∀ t : Fin grid1.N, _)

theorem row_lt (t : Fin cfg1.N) (p : Fin 32) : t.val * 32 + p.val < 2048 := by
  have ht : t.val < 64 := lt_of_lt_of_eq t.isLt N_1
  have := p.isLt; omega

/-- The row of the arrays that row `p` of block `t` is. -/
abbrev rowOf (t : Fin cfg1.N) (p : Fin 32) : Fin 2048 := ⟨t.val * 32 + p.val, row_lt t p⟩

theorem iblk1_0_apply (c : Dev nD) (t : Fin cfg1.N) (p : Fin 32) (k : Fin 40000) :
    (iblk1 V c 0 t : Vec F S32x40000 .f32) (ix2 p k) = (V c main_arg0 : S2048x40000.Idx → Elt F .f32) (ix2 (rowOf t p) k) := by
  obtain ⟨⟨e0, e1⟩, -⟩ := index1 t
  unfold iblk1
  rw [View.read_apply]
  show V c main_arg0 _ = V c main_arg0 _
  congr 1
  funext a; apply Fin.ext
  match a with
  | ⟨0, _⟩ => show win1_0.index t 0 * 32 + 1 * p.val = t.val * 32 + p.val; rw [e0]; omega
  | ⟨1, _⟩ => show win1_0.index t 1 * 40000 + 1 * k.val = k.val; rw [e1]; omega

theorem iblk1_1_apply (c : Dev nD) (t : Fin cfg1.N) (p : Fin 32) (u : Fin 1) :
    (iblk1 V c 1 t : Vec F S32x1 .i32) (ix2 p u) = (V c main_v0 : S2048x1.Idx → Elt F .i32) (ix2 (rowOf t p) u) := by
  obtain ⟨-, ⟨e0, e1⟩, -⟩ := index1 t
  unfold iblk1
  rw [View.read_apply]
  show V c main_v0 _ = V c main_v0 _
  congr 1
  funext a; apply Fin.ext
  match a with
  | ⟨0, _⟩ => show win1_1.index t 0 * 32 + 1 * p.val = t.val * 32 + p.val; rw [e0]; omega
  | ⟨1, _⟩ => show win1_1.index t 1 * 1 + 1 * u.val = u.val; rw [e1]; omega

theorem iblk1_2 (c : Dev nD) (t : Fin cfg1.N) : (iblk1 V c 2 t : Vec F S1 .f32) = (V c main_arg11 : S1.Idx → Elt F .f32) := by
  obtain ⟨-, -, e0, -⟩ := index1 t
  funext y
  unfold iblk1
  rw [View.read_apply]
  show V c main_arg11 _ = V c main_arg11 y
  congr 1
  funext a; apply Fin.ext
  match a with
  | ⟨0, _⟩ => show win1_2.index t 0 * 1 + 1 * (y 0).val = (y 0).val; rw [e0]; omega

/-- What point `t` writes back is block `t` of `G`, when the body's stored value at every row of the block is `G` at
    the row of the array it is. -/
theorem flushed1 (c : Dev nD) (G : S2048x1.Idx → Elt F .f32)
    (hG : ∀ (t : Fin cfg1.N) (p : Fin 32) (u : Fin 1),
      k1_pay1 (iblk1 V c 0 t) (iblk1 V c 1 t) (iblk1 V c 2 t) (ix2 p u) = G (ix2 (rowOf t p) u))
    (t : Fin cfg1.N) : (dat1 V c).flushed 3 t = ((cfg1.win 3).blk t).view.read (Elt F) G := by
  show (cfg1.win 3).cut (grid1.coords t) ((dat1 V c).after 3 t) = _
  rw [after1_3]
  unfold out1_3
  rw [View.canon_unit_zero hz2]
  simp only [View.ld_unit_zero (S := S32x40000) hz2, View.ld_unit_zero (S := S32x1) hz2, View.ld_unit_zero (S := S1) hz1]
  obtain ⟨-, -, -, e0, e1⟩ := index1 t
  funext y
  obtain ⟨p, u, rfl⟩ : ∃ (p : Fin 32) (u : Fin 1), y = ix2 p u := ⟨y 0, y 1, eq_ix2 y⟩
  show k1_pay1 (iblk1 V c 0 t) (iblk1 V c 1 t) (iblk1 V c 2 t) (ix2 p u) = G (((cfg1.win 3).blk t).view.emb (ix2 p u))
  rw [hG t p u]
  congr 1
  funext a; apply Fin.ext
  match a with
  | ⟨0, _⟩ => show t.val * 32 + p.val = win1_3.index t 0 * 32 + 1 * p.val; rw [e0]; omega
  | ⟨1, _⟩ => show u.val = win1_3.index t 1 * 1 + 1 * u.val; rw [e1]; omega

/-- The result array after the second launch is `G`: row `r` lies in block `r / 32`. -/
theorem final1 (c : Dev nD) (G : S2048x1.Idx → Elt F .f32)
    (hG : ∀ (t : Fin cfg1.N) (p : Fin 32) (u : Fin 1),
      k1_pay1 (iblk1 V c 0 t) (iblk1 V c 1 t) (iblk1 V c 2 t) (ix2 p u) = G (ix2 (rowOf t p) u)) :
    (dat1 V c).arrAt 3 cfg1.N = G :=
  (dat1 V c).arrAt_eq_of_cover 3 G (fun t _ => flushed1 V c G hG t) fun i => by
    have h0 : (i 0 : Nat) < 2048 := (i 0).isLt
    have h1 : (i 1 : Nat) < 1 := (i 1).isLt
    have hlt : (i 0 : Nat) / 32 < cfg1.N := by rw [show cfg1.N = 64 from N_1]; omega
    refine ⟨⟨(i 0 : Nat) / 32, hlt⟩, flush1_3 _, ?_⟩
    obtain ⟨-, -, -, e0, e1⟩ := index1 ⟨(i 0 : Nat) / 32, hlt⟩
    show i ∈ ((View.whole main_v1).slice (win1_3.rect ⟨(i 0 : Nat) / 32, hlt⟩)).set
    rw [View.set_slice_whole, Rect.mem_set_unit]
    intro a
    match a with
    | ⟨0, _⟩ => show win1_3.index ⟨(i 0 : Nat) / 32, hlt⟩ 0 * 32 ≤ (i 0 : Nat) ∧ (i 0 : Nat) < win1_3.index ⟨(i 0 : Nat) / 32, hlt⟩ 0 * 32 + 32; rw [e0]; show (i 0 : Nat) / 32 * 32 ≤ (i 0 : Nat) ∧ (i 0 : Nat) < (i 0 : Nat) / 32 * 32 + 32; omega
    | ⟨1, _⟩ => show win1_3.index ⟨(i 0 : Nat) / 32, hlt⟩ 1 * 1 ≤ (i 1 : Nat) ∧ (i 1 : Nat) < win1_3.index ⟨(i 0 : Nat) / 32, hlt⟩ 1 * 1 + 1; rw [e1]; omega

end Cert.KernelIdeal.Blocks

end
-- ==== Proof.Spec.lean ====
/-
  The lookup the two programs share, as pure functions. A row's query point has been turned into two signed
  32-bit words (column and row of a 200 x 200 grid). Each word is clamped into [0, 199], the flat cell number is
  row * 200 + column, the signed distance stored at that cell of the row's 40000 cells is read, and the
  result is the logistic function of 100 * (-distance + bias). The integer steps are exact: after the
  clamps neither the product nor the sum wraps, so the flat number lies in [0, 39999] and reads the same
  signed or unsigned.
-/
import Idealize.ShloMosaic.Lib.ValueIdx
import Idealize.ShloMosaic.PureOps.Ideal

noncomputable section

namespace Cert.Lookup

open Idealize.ShloMosaic Idealize.ShloMosaic.ValueIdx

/-- A signed word clamped into [0, 199]: the larger of 0 and the word, then the smaller of 199 and that. -/
def clampW (a : BitVec 32) : BitVec 32 := IntOp.minsi 199#32 (IntOp.maxsi 0#32 a)

/-- The flat cell number of a (row, column) pair of words, both clamped first. -/
def flatW (row col : BitVec 32) : BitVec 32 := IntOp.addi (IntOp.muli (clampW row) 200#32) (clampW col)

/-- The signed order of two words is the order of the integers they denote. -/
theorem slt_iff (a b : BitVec 32) : a.slt b = true ↔ a.toInt < b.toInt := by
  simp [BitVec.slt]

/-- A clamped word is at most 199 as a natural number: a negative word becomes 0, a word above 199 becomes 199,
    and a word in between is its own non-negative value. -/
theorem clampW_toNat_le (a : BitVec 32) : (clampW a).toNat ≤ 199 := by
  unfold clampW IntOp.minsi IntOp.maxsi
  by_cases h1 : a.slt 0#32 = true
  · rw [if_pos h1]; decide
  · rw [if_neg h1]
    by_cases h2 : (199#32).slt a = true
    · rw [if_pos h2]; decide
    · rw [if_neg h2]
      rw [slt_iff] at h1 h2
      have e199 : (199#32 : BitVec 32).toInt = 199 := by decide
      have e0 : (0#32 : BitVec 32).toInt = 0 := by decide
      rw [e199] at h2; rw [e0] at h1
      have := BitVec.toInt_eq_toNat_cond a
      have hlt := a.isLt
      split at this <;> omega

/-- The flat cell number, as a natural number, is the clamped row times 200 plus the clamped column: at most
    199 * 200 + 199, so nothing wraps. -/
theorem flatW_toNat (row col : BitVec 32) :
    (flatW row col).toNat = (clampW row).toNat * 200 + (clampW col).toNat := by
  have h1 := clampW_toNat_le row
  have h2 := clampW_toNat_le col
  unfold flatW IntOp.addi IntOp.muli
  rw [BitVec.toNat_add, BitVec.toNat_mul]
  have e200 : (200#32 : BitVec 32).toNat = 200 := by decide
  rw [e200]
  have hm : (clampW row).toNat * 200 % 2 ^ 32 = (clampW row).toNat * 200 := Nat.mod_eq_of_lt (by omega)
  rw [hm]
  exact Nat.mod_eq_of_lt (by omega)

/-- The flat cell number is a cell of the row: below 40000. -/
theorem flatW_toNat_lt (row col : BitVec 32) : (flatW row col).toNat < 40000 := by
  have h1 := clampW_toNat_le row
  have h2 := clampW_toNat_le col
  rw [flatW_toNat]; omega

/-- Read as a signed integer the flat cell number is the same non-negative number. -/
theorem flatW_toInt (row col : BitVec 32) : (flatW row col).toInt = ((flatW row col).toNat : Int) := by
  have h := flatW_toNat_lt row col
  have := BitVec.toInt_eq_toNat_cond (flatW row col)
  split at this <;> omega

/-- The cell words of all rows: entry (r, 0) the column word, entry (r, 1) the row word. -/
abbrev Cells := IVec (⟨2, ![2048, 2]⟩ : Shape) 32

/-- Row `r`'s flat cell number, a word. -/
def flatOf (cell : Cells) (r : Fin 2048) : BitVec 32 := flatW (cell (ix2 r 1)) (cell (ix2 r 0))

/-- Row `r`'s cell, as a column of the 40000-cell table. -/
def colOf (cell : Cells) (r : Fin 2048) : Fin 40000 := ⟨(flatOf cell r).toNat, flatW_toNat_lt _ _⟩

/-- Row `r`'s result: the logistic function of 100 * (-distance at the row's cell + bias). The factor is kept as
    the float word both programs print for it. -/
def outRow (sdf : FVec Ideal (⟨2, ![2048, 40000]⟩ : Shape) .f32) (bias : FVec Ideal (⟨1, ![1]⟩ : Shape) .f32)
    (cell : Cells) (r : Fin 2048) : EReal :=
  Ideal.logistic (Ideal.ofBits .f32 0x42C80000#32 * (-(sdf (ix2 r (colOf cell r))) + bias (ix1 0)))

/-- The result array, one entry per row. -/
def out (sdf : FVec Ideal (⟨2, ![2048, 40000]⟩ : Shape) .f32) (bias : FVec Ideal (⟨1, ![1]⟩ : Shape) .f32)
    (cell : Cells) : FVec Ideal (⟨2, ![2048, 1]⟩ : Shape) .f32 :=
  fun i => outRow sdf bias cell ⟨(i 0).val, idx2_lt0 i⟩

theorem out_apply (sdf : FVec Ideal (⟨2, ![2048, 40000]⟩ : Shape) .f32) (bias : FVec Ideal (⟨1, ![1]⟩ : Shape) .f32)
    (cell : Cells) (r : Fin 2048) (u : Fin 1) : out sdf bias cell (ix2 r u) = outRow sdf bias cell r := rfl

end Cert.Lookup

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.LibHostDot.lean ====
/-
  The host's `dot_general` of an `[m, k]` by a `[k, n]` matrix (the left operand's second axis contracted with the
  right operand's first, no batch axes), at the ideal values, read at an entry: the sum over the contracted
  coordinate of the products of the entries. General in the extents.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

theorem dotGeneral_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    Host.dotGeneral (⟨[1], [0], [0], [1], [], [], w⟩ : DotDims ⟨2, ![m, k]⟩ ⟨2, ![k, n]⟩ ⟨2, ![m, n]⟩) prec A B (ix2 p j)
      = ∑ c : Fin k, A (ix2 p c) * B (ix2 c j) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.LibAffineIdx.lean ====
/-
  An affine layer read at an entry, on both sides, at the ideal values (a float is an extended real). The host form:
  a `dot_general` of an `[M, k]` by a `[k, n]` matrix plus a bias vector `[n]` broadcast first to a row `[1, n]` and
  then down the rows. The kernel form: the product of a block `[m, k]` by the same `[k, n]` matrix accumulated into the
  zero splat, the operands passed through a change of float format (the identity on extended reals), plus a bias row
  `[1, n]` broadcast down the rows. Both read, at `(p, q)`, `(∑ c, A (p, c) * B (c, q)) + bias q`. General in the extents.
-/
import Idealize.ShloMosaic.Lib.Pipeline.Value
import Idealize.ShloMosaic.Lib.ValueIdx
import Idealize.ShloMosaic.Lib.ValueLayout
import Idealize.ShloMosaic.PureOps.Ideal.Laws
import proofs.«173205_j69423851372992_1_alg».proof.Proof.LibKernelIdx
import proofs.«173205_j69423851372992_1_alg».proof.Proof.LibHostDot

noncomputable section

open scoped BigOperators

namespace Cert.LibAffineIdx

open Idealize.ShloMosaic Idealize.ShloMosaic.ValueIdx

/-! ## The bias, broadcast, read at an entry -/

/-- A vector `[n]` broadcast to the row `[1, n]` (its axis sent to the second one) reads, at `(u, q)`, the vector at
    `q`, whatever the unit coordinate `u`. -/
theorem rowOfVec_apply {α : Type} {n : ℕ} (h : (⟨1, ![n]⟩ : Shape).BroadcastsInDim ⟨2, ![1, n]⟩ (![1] : Fin 1 → Fin 2))
    (b : (⟨1, ![n]⟩ : Shape).Idx → α) (u : Fin 1) (q : Fin n) :
    broadcastInDim ⟨2, ![1, n]⟩ ![1] h b (ix2 u q) = b (ix1 q) := by
  refine broadcastInDim_apply ![1] h b (ix2 u q) (ix1 q) fun a => ?_
  match a with
  | ⟨0, _⟩ =>
    show q.val = if n = 1 then 0 else q.val
    split
    · have := q.isLt; omega
    · rfl

/-- A row `[1, n]` broadcast down `M` rows by `broadcast_in_dim` (axes kept in place) reads, at `(p, q)`, the row at
    `(u, q)`, whatever the unit coordinate `u`. -/
theorem rowsOfRow_apply {α : Type} {M n : ℕ}
    (h : (⟨2, ![1, n]⟩ : Shape).BroadcastsInDim ⟨2, ![M, n]⟩ (![0, 1] : Fin 2 → Fin 2))
    (r : (⟨2, ![1, n]⟩ : Shape).Idx → α) (p : Fin M) (q : Fin n) (u : Fin 1) :
    broadcastInDim ⟨2, ![M, n]⟩ ![0, 1] h r (ix2 p q) = r (ix2 u q) := by
  refine broadcastInDim_apply ![0, 1] h r (ix2 p q) (ix2 u q) fun a => ?_
  match a with
  | ⟨0, _⟩ =>
    show u.val = if (1 : ℕ) = 1 then 0 else p.val
    rw [if_pos rfl]; omega
  | ⟨1, _⟩ =>
    show q.val = if n = 1 then 0 else q.val
    split
    · have := q.isLt; omega
    · rfl

/-- A row `[1, n]` broadcast down `m` rows by a vector broadcast reads, at `(p, q)`, the row at `(u, q)`, whatever the
    unit coordinate `u`. -/
theorem broadcastTo_1n_mn_apply {α : Type} {m n : ℕ} (r : (⟨2, ![1, n]⟩ : Shape).Idx → α)
    (h : (⟨2, ![1, n]⟩ : Shape).Broadcasts ⟨2, ![m, n]⟩) (p : Fin m) (q : Fin n) (u : Fin 1) :
    broadcastTo ⟨2, ![m, n]⟩ r h (ix2 p q) = r (ix2 u q) := by
  refine broadcastTo_apply r h (ix2 p q) (ix2 u q) fun a => ?_
  match a with
  | ⟨0, _⟩ =>
    show u.val = if (1 : ℕ) = 1 then 0 else p.val
    rw [if_pos rfl]; omega
  | ⟨1, _⟩ =>
    show q.val = if n = 1 then 0 else q.val
    split
    · have := q.isLt; omega
    · rfl

/-- A vector `[n]` cast to the row `[1, n]` reads, at `(u, q)`, the vector at `q`: both row-major positions are `q`. -/
theorem shapeCast_n_1n_apply {α : Type} {n : ℕ} (b : (⟨1, ![n]⟩ : Shape).Idx → α)
    (h : (⟨1, ![n]⟩ : Shape).ShapeCasts ⟨2, ![1, n]⟩) (u : Fin 1) (q : Fin n) :
    shapeCast ⟨2, ![1, n]⟩ b h (ix2 u q) = b (ix1 q) :=
  shapeCast_apply b h _ _ (by
    have hu : u.val = 0 := by omega
    rw [Shape.rowMajor_val_two, Shape.rowMajor_val_one]
    show q.val = u.val * n + q.val
    rw [hu, Nat.zero_mul, Nat.zero_add])

/-! ## The two forms of the layer at an entry -/

/-- The host form at `(p, q)`: the row of `A` against the column of `B`, plus the bias at `q`. -/
theorem hostAffine_apply {M k n : ℕ}
    (w : DotDims.WF ⟨2, ![M, k]⟩ ⟨2, ![k, n]⟩ ⟨2, ![M, n]⟩ [1] [0] [0] [1] [] [])
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (A : FVec Ideal ⟨2, ![M, k]⟩ .f32) (B : FVec Ideal ⟨2, ![k, n]⟩ .f32) (b : FVec Ideal ⟨1, ![n]⟩ .f32)
    (p : Fin M) (q : Fin n) :
    addf (Host.dotGeneral (F := Ideal) (⟨[1], [0], [0], [1], [], [], w⟩ : DotDims ⟨2, ![M, k]⟩ ⟨2, ![k, n]⟩ ⟨2, ![M, n]⟩) none A B)
        (broadcastInDim ⟨2, ![M, n]⟩ ![0, 1] h2 (broadcastInDim ⟨2, ![1, n]⟩ ![1] h1 b)) (ix2 p q)
      = (∑ c : Fin k, A (ix2 p c) * B (ix2 c q)) + b (ix1 q) := by
  refine (addf_apply _ _ _).trans ?_
  rw [Cert.LibHostDot.dotGeneral_apply w none A B p q, rowsOfRow_apply h2 _ p q 0, rowOfVec_apply h1 b 0 q]

/-- The kernel form at `(p, q)` of a block: the row of the block against the column of `W`, plus the bias row at `q`. -/
theorem kernelAffine_apply {m k n : ℕ}
    (w : DotDims.WF ⟨2, ![m, k]⟩ ⟨2, ![k, n]⟩ ⟨2, ![m, n]⟩ [1] [0] [0] [1] [] [])
    (hx : (⟨2, ![m, k]⟩ : Shape).ShapeCasts ⟨2, ![m, k]⟩) (hr : (⟨2, ![1, n]⟩ : Shape).ShapeCasts ⟨2, ![1, n]⟩)
    (hb : (⟨2, ![1, n]⟩ : Shape).Broadcasts ⟨2, ![m, n]⟩) (hlt : FTy.bits .bf16 < FTy.bits .f32)
    (x : FVec Ideal ⟨2, ![m, k]⟩ .f32) (W : FVec Ideal ⟨2, ![k, n]⟩ .f32) (r : FVec Ideal ⟨2, ![1, n]⟩ .f32)
    (p : Fin m) (q : Fin n) :
    addf (matmul (⟨[1], [0], [0], [1], [], [], w⟩ : DotDims ⟨2, ![m, k]⟩ ⟨2, ![k, n]⟩ ⟨2, ![m, n]⟩) none
          (truncf .bf16 (shapeCast ⟨2, ![m, k]⟩ x hx) hlt) (truncf .bf16 W hlt)
          (constant (F := Ideal) ⟨2, ![m, n]⟩ .f32 0x00000000#32))
        (broadcastTo ⟨2, ![m, n]⟩ (shapeCast ⟨2, ![1, n]⟩ r hr) hb) (ix2 p q)
      = (∑ c : Fin k, x (ix2 p c) * W (ix2 c q)) + r (ix2 0 q) := by
  rw [shapeCast_self x hx, shapeCast_self r hr]
  refine (addf_apply _ _ _).trans ?_
  rw [Cert.LibKernelIdx.matmul_zero_apply w none (truncf .bf16 x hlt) (truncf .bf16 W hlt) p q,
    broadcastTo_1n_mn_apply r hb p q 0]
  rfl

/-! ## Rows in blocks -/

/-- The offsets `(0, 0)` of a rectangle of a rank-2 array, spelt as the constant zero function. -/
theorem zero_offsets2 : (![0, 0] : Fin 2 → Nat) = fun _ => 0 := funext fun a => by fin_cases a <;> rfl

/-- Row `r` of an array of `N * B` rows lies in the block of `B` rows numbered `r / B`. -/
theorem row_in_block {B r : ℕ} (hB : 0 < B) : r / B * B ≤ r ∧ r < r / B * B + B := by
  have h1 := Nat.div_add_mod r B
  have h2 := Nat.mod_lt r hB
  rw [Nat.mul_comm] at h1
  omega

end Cert.LibAffineIdx

end
-- ==== Proof.LibRowForms.lean ====
/-
  Three layout forms of a kernel body read at an index given by coordinates, general in the extents: a one-row
  matrix repeated down the rows ([1, b] → [a, b]), one column cut out of a matrix ([a, b] → [a, 1] at a column
  offset), and a one-hot row built from a lane counter (the counter compared with a constant, widened, and converted
  to a float at the ideal values): one where the lane is the constant, zero elsewhere.
-/
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowForms

open Idealize.ShloMosaic Idealize.ShloMosaic.ValueIdx

variable {α : Type}

/-- A `[1, b]` row broadcast to `[a, b]` reads, at `(p, c)`, the row's entry of column `c` (its unit coordinate
    written `u`, whatever it is). -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

/-- The column at offset `o` cut out of an `[a, b]` matrix reads, at `(p, u)`, the matrix at `(p, o)`. -/
theorem sliceColumn_apply {a b : ℕ} (o : ℕ) (ho : o < b) (x : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] x h (ix2 p u) = x (ix2 p ⟨o, ho⟩) := by
  refine extractStridedSlice_apply ![0, o] x h (ix2 p u) (ix2 p ⟨o, ho⟩) fun ax => ?_
  match ax with
  | ⟨0, _⟩ => show p.val = 0 + p.val; omega
  | ⟨1, _⟩ => show o = o + u.val; omega

/-- A lane counter below `n ≤ 2³²` compared with the constant `j < n`, widened to 32 bits and converted: one at
    lane `j`, zero elsewhere. -/
theorem oneHot_word (i j : ℕ) (hi : i < 2 ^ 32) (hj : j < 2 ^ 32) :
    FloatOps.sitofp (F := Ideal) .f32 ((IntOp.cmpi .eq (BitVec.ofNat 32 i) (BitVec.ofNat 32 j)).setWidth 32)
      = if i = j then (1 : EReal) else 0 := by
  show ((((BitVec.ofBool (BitVec.ofNat 32 i == BitVec.ofNat 32 j)).setWidth 32).toInt : ℝ) : EReal) = _
  rw [toInt_setWidth_bit]
  by_cases h : i = j
  · subst h
    rw [if_pos rfl, beq_self_eq_true]
    simp
  · have e : (BitVec.ofNat 32 i == BitVec.ofNat 32 j) = false := by
      rw [beq_eq_false_iff_ne]
      intro e
      apply h
      have := congrArg BitVec.toNat e
      rw [BitVec.toNat_ofNat, BitVec.toNat_ofNat, Nat.mod_eq_of_lt hi, Nat.mod_eq_of_lt hj] at this
      exact this
    rw [e, if_neg h]
    simp

end Cert.LibRowForms

end
-- ==== Proof.KernelPay.lean ====
/-
  What the two kernel bodies compute, read at one row. The first body's stored words: the cell words (query point
  over resolution plus origin, rounded to even, converted to a signed word) cut into their two columns, each
  clamped into [0, 199], combined as row * 200 + column — the flat cell number of the specification. The second
  body's stored value at a row whose index word is the cell number `n`: the lane counter equals the index word at
  lane `n` only, so the selected row is the distance at `n` there and zero elsewhere and its lane sum is that one
  distance; zero minus it is its negative; the result is the logistic function of 100 * (-distance + bias).
-/
import proofs.«173205_j69423851372992_1_alg».proof.Proof.Gen.KernelIdeal.Skeleton
import proofs.«173205_j69423851372992_1_alg».proof.Proof.Spec
import proofs.«173205_j69423851372992_1_alg».proof.Proof.LibKernelIdx
import proofs.«173205_j69423851372992_1_alg».proof.Proof.LibAffineIdx
import proofs.«173205_j69423851372992_1_alg».proof.Proof.LibRowForms
import Idealize.ShloMosaic.Lib.Pipeline.Value
import Idealize.ShloMosaic.Lib.ValueIdx
import Idealize.ShloMosaic.PureOps.Ideal.Laws

noncomputable section

open scoped BigOperators

namespace Cert.KernelPay

open Idealize.ShloMosaic Idealize.ShloMosaic.ValueIdx Cert.KernelIdeal Cert.KernelIdeal.Gen

variable {F : FTy → Type} [FloatOps F]

/-! ## The first body: the flat cell number of a row -/

/-- The stored index word of row `r` is the flat cell number of the row's two cell words: the column word is the
    cell words' column 0, the row word their column 1, each clamped, then row * 200 + column. -/
theorem index_apply (v0 : Vec F S2048x22 .f32) (v2 : Vec F S22x256 .f32) (v5 : Vec F S256 .f32) (v10 : Vec F S256x256 .f32)
    (v14 : Vec F S256 .f32) (v19 : Vec F S256x2 .f32) (v23 : Vec F S2 .f32) (v27 v28 : Vec F S2048x2 .f32)
    (r : Fin 2048) (u : Fin 1) :
    k0_pay1 (k0_pay3 v0 v2 v5 v10 v14 v19 v23 v27 v28) (k0_pay4 v0 v2 v5 v10 v14 v19 v23 v27 v28) (ix2 r u)
      = Cert.Lookup.flatOf (k0_pay2 v0 v2 v5 v10 v14 v19 v23 v27 v28) r := by
  unfold k0_pay1 k0_pay3 k0_pay4
  generalize k0_pay2 v0 v2 v5 v10 v14 v19 v23 v27 v28 = cell
  show IntOp.addi (IntOp.muli (IntOp.minsi 199#32 (IntOp.maxsi 0#32
        (extractStridedSlice S2048x1 ![0, 1] cell slices_S2048x2_o0_1_S2048x1 (ix2 r u)))) 200#32)
      (IntOp.minsi 199#32 (IntOp.maxsi 0#32 (extractStridedSlice S2048x1 ![0, 0] cell slices_S2048x2_o0_0_S2048x1 (ix2 r u)))) = _
  rw [Cert.LibRowForms.sliceColumn_apply 1 (by decide) cell slices_S2048x2_o0_1_S2048x1 r u,
    Cert.LibRowForms.sliceColumn_apply 0 (by decide) cell slices_S2048x2_o0_0_S2048x1 r u]
  rfl

/-! ## The second body: one selected lane, summed, negated, biased, scaled, squashed -/

/-- Two lane numbers below 2^32 are equal as 32-bit words only when they are equal. -/
theorem ofNat_inj_of_lt {i j : ℕ} (hi : i < 2 ^ 32) (hj : j < 2 ^ 32) (e : BitVec.ofNat 32 i = BitVec.ofNat 32 j) : i = j := by
  have := congrArg BitVec.toNat e
  rw [BitVec.toNat_ofNat, BitVec.toNat_ofNat, Nat.mod_eq_of_lt hi, Nat.mod_eq_of_lt hj] at this
  exact this

/-- The selected row at lane `k`: the distance at `k` where `k` is the row's cell number, zero elsewhere. -/
theorem selected_apply (v0 : Vec Ideal S32x40000 .f32) (v1 : Vec Ideal S32x1 .i32) (p : Fin 32) (n k : Fin 40000)
    (hn : v1 (ix2 p 0) = BitVec.ofNat 32 n.val) :
    select (cmpi .eq (iota .tc S32x40000 32 [1] iota_S32x40000_d1_w32)
        (broadcastTo S32x40000 (shapeCast S32x1 v1 shapeCasts_S32x1_S32x1) broadcasts_S32x1_S32x40000))
      v0 (broadcast S32x40000 (Scalar.ofBits (F := Ideal) .f32 0x00000000#32)) (ix2 p k)
      = if k = n then v0 (ix2 p k) else 0 := by
  rw [select_apply]
  have hio : iota .tc S32x40000 32 [1] iota_S32x40000_d1_w32 (ix2 p k) = BitVec.ofNat 32 k.val :=
    iota_single_apply .tc S32x40000 32 1 iota_S32x40000_d1_w32 (ix2 p k)
  have hbc : broadcastTo S32x40000 (shapeCast S32x1 v1 shapeCasts_S32x1_S32x1) broadcasts_S32x1_S32x40000 (ix2 p k)
      = BitVec.ofNat 32 n.val := by
    rw [shapeCast_self v1 shapeCasts_S32x1_S32x1]
    exact (Cert.LibKernelIdx.broadcastTo_a1_ab_apply v1 broadcasts_S32x1_S32x40000 p k 0).trans hn
  have hc : cmpi .eq (iota .tc S32x40000 32 [1] iota_S32x40000_d1_w32)
      (broadcastTo S32x40000 (shapeCast S32x1 v1 shapeCasts_S32x1_S32x1) broadcasts_S32x1_S32x40000) (ix2 p k)
      = BitVec.ofBool (BitVec.ofNat 32 k.val == BitVec.ofNat 32 n.val) := by
    show IntOp.cmpi .eq _ _ = _
    rw [hio, hbc]; rfl
  rw [hc]
  by_cases h : k = n
  · subst h
    rw [if_pos rfl, beq_self_eq_true]
    exact select_one _ _
  · have e : (BitVec.ofNat 32 k.val == BitVec.ofNat 32 n.val) = false := by
      rw [beq_eq_false_iff_ne]
      intro e
      exact h (Fin.ext (ofNat_inj_of_lt (by have := k.isLt; omega) (by have := n.isLt; omega) e))
    rw [e, if_neg h]
    refine (select_zero _ _).trans ?_
    show Ideal.ofBits .f32 0x00000000#32 = 0
    exact Ideal.ofBits_zero_f32

/-- THE SECOND BODY AT A ROW whose index word is the cell number `n`: the logistic function of
    100 * (-distance at `n` + bias). -/
theorem lookup_apply (v0 : Vec Ideal S32x40000 .f32) (v1 : Vec Ideal S32x1 .i32) (v10 : Vec Ideal S1 .f32)
    (p : Fin 32) (u : Fin 1) (n : Fin 40000) (hn : v1 (ix2 p 0) = BitVec.ofNat 32 n.val) :
    k1_pay1 (F := Ideal) v0 v1 v10 (ix2 p u)
      = Ideal.logistic (Ideal.ofBits .f32 0x42C80000#32 * (-(v0 (ix2 p n)) + v10 (ix1 0))) := by
  obtain rfl : u = 0 := Fin.eq_zero u
  unfold k1_pay1
  dsimp only [logistic, mulf, addf, subf]
  rw [Cert.LibKernelIdx.shapeCast_a_a1_apply _ shapeCasts_S32_S32x1 p 0,
    Cert.LibKernelIdx.laneSum_apply _ reduces_S32x40000_S32 (.inl rfl) rfl p,
    Cert.LibAffineIdx.broadcastTo_1n_mn_apply _ broadcasts_S1x1_S32x1 p 0 0,
    Cert.LibAffineIdx.shapeCast_n_1n_apply v10 shapeCasts_S1_S1x1 0 0]
  have hsum : (∑ k : Fin 40000, select (cmpi .eq (iota .tc S32x40000 32 [1] iota_S32x40000_d1_w32)
        (broadcastTo S32x40000 (shapeCast S32x1 v1 shapeCasts_S32x1_S32x1) broadcasts_S32x1_S32x40000))
      v0 (broadcast S32x40000 (Scalar.ofBits (F := Ideal) .f32 0x00000000#32)) (ix2 p k)) = v0 (ix2 p n) := by
    rw [Finset.sum_eq_single n]
    · rw [selected_apply v0 v1 p n n hn, if_pos rfl]
    · intro k _ hk
      rw [selected_apply v0 v1 p n k hn, if_neg hk]
    · intro h; exact absurd (Finset.mem_univ n) h
  rw [hsum]
  show Ideal.logistic (Ideal.ofBits .f32 0x42C80000#32 * (Ideal.ofBits .f32 0x00000000#32 - v0 (ix2 p n) + v10 (ix1 0))) = _
  rw [Ideal.ofBits_zero_f32, zero_sub]

end Cert.KernelPay

end
-- ==== Proof.KernelValue.lean ====
/-
  The idealized kernel's result as one function of its argument arrays. The first launch leaves the flat cell
  numbers of all rows in the intermediate array; the second launch's block `t` finds rows 32 t … 32 t + 31 of them
  beside the same rows of the distance table, and at each row stores the logistic function of
  100 * (-distance at the row's cell + bias). The result array therefore ends at the specification's `out` of the
  distance table, the bias and the cell words, the arguments unchanged.
-/
import proofs.«173205_j69423851372992_1_alg».proof.Proof.KernelRun
import proofs.«173205_j69423851372992_1_alg».proof.Proof.Blocks
import proofs.«173205_j69423851372992_1_alg».proof.Proof.KernelPay
import proofs.«173205_j69423851372992_1_alg».proof.Proof.Spec

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Blocks

variable (m : (ℓ : Loc nD τ sig) → Buf (Elt Ideal) ℓ) (ρ : Dev nD → PrngReg)

/-- The cell words of the launch memory: the first body's converted words of the argument arrays. -/
abbrev cells (c : Dev nD) : Cert.Lookup.Cells :=
  k0_pay2 (F := Ideal) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg2))
    (m ((c.tc : Thread nD τ).loc main_arg3))

/-- The result: the specification's lookup of the launch memory's distance table, bias and cell words. -/
abbrev result (c : Dev nD) : Buf (Elt Ideal) ((c.tc : Thread nD τ).loc main_v1) :=
  Cert.Lookup.out (m ((c.tc : Thread nD τ).loc main_arg0)) (m ((c.tc : Thread nD τ).loc main_arg11)) (cells m c)

/-- The second launch finds the distance table and the bias as launched: the first launch writes neither. -/
theorem entry_arg0 (c : Dev nD) : V1 m ρ c main_arg0 = m ((c.tc : Thread nD τ).loc main_arg0) :=
  W1_of_ne m ρ c main_arg0 (by decide)
theorem entry_arg11 (c : Dev nD) : V1 m ρ c main_arg11 = m ((c.tc : Thread nD τ).loc main_arg11) :=
  W1_of_ne m ρ c main_arg11 (by decide)

/-- and the intermediate array at the first launch's stored words. -/
theorem entry_v0 (c : Dev nD) : V1 m ρ c main_v0 = idxWords (V0 m ρ) c :=
  (W1_arr m ρ c 9).trans (final0 (V0 m ρ) c)

/-- Row `r` of the intermediate array is the row's flat cell number. -/
theorem entry_v0_apply (c : Dev nD) (r : Fin 2048) (u : Fin 1) :
    (V1 m ρ c main_v0 : S2048x1.Idx → Elt Ideal .i32) (ix2 r u) = Cert.Lookup.flatOf (cells m c) r := by
  rw [entry_v0]
  exact Cert.KernelPay.index_apply _ _ _ _ _ _ _ _ _ r u

/-- THE RESULT ARRAY after the two launches. -/
theorem final (c : Dev nD) : W2 m ρ c (Proc.devRef .tc main_v1) = result m c := by
  refine (W2_arr m ρ c 3).trans ?_
  refine final1 (V1 m ρ) c (result m c) fun t p u => ?_
  have hn : (iblk1 (V1 m ρ) c 1 t : Vec Ideal S32x1 .i32) (ix2 p 0)
      = BitVec.ofNat 32 (Cert.Lookup.colOf (cells m c) (rowOf t p)).val := by
    rw [iblk1_1_apply (V1 m ρ) c t p 0, entry_v0_apply m ρ c (rowOf t p) 0]
    show _ = BitVec.ofNat 32 (Cert.Lookup.flatOf (cells m c) (rowOf t p)).toNat
    simp
  refine (Cert.KernelPay.lookup_apply _ _ _ p u (Cert.Lookup.colOf (cells m c) (rowOf t p)) hn).trans ?_
  rw [iblk1_0_apply (V1 m ρ) c t p, iblk1_2 (V1 m ρ) c t, entry_arg0, entry_arg11]
  rfl

/-- The run, read: the result array at the specification's lookup, every argument array as launched. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (final m ρ c), (h c).2⟩)
    (Cert.KernelIdeal.ValueRun.run_result (F := Ideal) m ρ)

end Cert.KernelIdeal.KernelValue

end
-- ==== Proof.MlpBridge.lean ====
/-
  The small perceptron of the two programs is one function. Both compute, for every row, three affine layers
  x · W + b with tanh after the first two, divide the 2-vector result by a per-row resolution, add a per-row origin,
  round to the nearest even integer and convert to a signed 32-bit word. One program writes a layer as a matrix
  product accumulated into the zero splat, its operands passed through a change of float format (the identity on
  extended reals), plus a bias vector cast to a row and repeated down the rows; the other writes it as a
  dot_general plus a bias vector broadcast to a row and then down the rows. At the ideal values both read, at
  (p, q), (∑ c, A (p, c) * W (c, q)) + b q, and tanh, the quotient and the rounding are each one function
  whichever program names them. So the two arrays of words are equal.
-/
import Idealize.ShloMosaic.Lib.Pipeline.Value
import Idealize.ShloMosaic.Lib.ValueIdx
import Idealize.ShloMosaic.Lib.ValueLayout
import Idealize.ShloMosaic.PureOps.Ideal.Laws
import proofs.«173205_j69423851372992_1_alg».proof.Proof.LibAffineIdx
import proofs.«173205_j69423851372992_1_alg».proof.Proof.Gen.KernelIdeal.Skeleton
import proofs.«173205_j69423851372992_1_alg».proof.Proof.ReadP

noncomputable section

open scoped BigOperators

namespace Cert.MlpBridge

open Idealize.ShloMosaic Idealize.ShloMosaic.ValueIdx

/-! ## One function under two names, at the ideal values -/

/-- The hyperbolic tangent of an array, entry by entry, is the same array whichever program names it. -/
theorem hostTanh_eq {s : Shape} {φ : FTy} (x : FVec Ideal s φ) : Host.tanh x = tanh x := rfl

/-- The quotient of two arrays, entry by entry, is the same array whichever program names it. -/
theorem hostDivf_eq {s : Shape} {φ : FTy} (x y : FVec Ideal s φ) : Host.divf x y = divf x y := rfl

/-- Rounding an array to the nearest even integers, entry by entry, is the same array whichever program names it. -/
theorem hostRoundeven_eq {s : Shape} {φ : FTy} (x : FVec Ideal s φ) : Host.roundeven x = roundeven x := rfl

/-! ## An affine layer, in its two spellings -/

/-- The matrix-product spelling at (p, q): the row of x against the column of W, plus the bias at q. The operands
    pass through a change of float format, which is the identity on extended reals; the bias vector [n] is cast to
    the row [1, n] and the row repeated down the m rows. -/
theorem kernelLayer_apply {m k n : ℕ}
    (w : DotDims.WF ⟨2, ![m, k]⟩ ⟨2, ![k, n]⟩ ⟨2, ![m, n]⟩ [1] [0] [0] [1] [] [])
    (hr : (⟨1, ![n]⟩ : Shape).ShapeCasts ⟨2, ![1, n]⟩)
    (hb : (⟨2, ![1, n]⟩ : Shape).Broadcasts ⟨2, ![m, n]⟩) (hlt : FTy.bits .bf16 < FTy.bits .f32)
    (x : FVec Ideal ⟨2, ![m, k]⟩ .f32) (W : FVec Ideal ⟨2, ![k, n]⟩ .f32) (b : FVec Ideal ⟨1, ![n]⟩ .f32)
    (p : Fin m) (q : Fin n) :
    addf (matmul (⟨[1], [0], [0], [1], [], [], w⟩ : DotDims ⟨2, ![m, k]⟩ ⟨2, ![k, n]⟩ ⟨2, ![m, n]⟩) none
          (truncf .bf16 x hlt) (truncf .bf16 W hlt)
          (constant (F := Ideal) ⟨2, ![m, n]⟩ .f32 0x00000000#32))
        (broadcastTo ⟨2, ![m, n]⟩ (shapeCast ⟨2, ![1, n]⟩ b hr) hb) (ix2 p q)
      = (∑ c : Fin k, x (ix2 p c) * W (ix2 c q)) + b (ix1 q) := by
  refine (addf_apply _ _ _).trans ?_
  rw [Cert.LibKernelIdx.matmul_zero_apply w none (truncf .bf16 x hlt) (truncf .bf16 W hlt) p q,
    Cert.LibAffineIdx.broadcastTo_1n_mn_apply (shapeCast ⟨2, ![1, n]⟩ b hr) hb p q 0,
    Cert.LibAffineIdx.shapeCast_n_1n_apply b hr 0 q]
  rfl

/-- The two spellings of a layer are the same array: entry by entry both are the row of x against the column of W
    plus the bias. -/
theorem layer_eq {m k n : ℕ}
    (w w' : DotDims.WF ⟨2, ![m, k]⟩ ⟨2, ![k, n]⟩ ⟨2, ![m, n]⟩ [1] [0] [0] [1] [] [])
    (hr : (⟨1, ![n]⟩ : Shape).ShapeCasts ⟨2, ![1, n]⟩)
    (hb : (⟨2, ![1, n]⟩ : Shape).Broadcasts ⟨2, ![m, n]⟩) (hlt : FTy.bits .bf16 < FTy.bits .f32)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (x : FVec Ideal ⟨2, ![m, k]⟩ .f32) (W : FVec Ideal ⟨2, ![k, n]⟩ .f32) (b : FVec Ideal ⟨1, ![n]⟩ .f32) :
    addf (matmul (⟨[1], [0], [0], [1], [], [], w⟩ : DotDims ⟨2, ![m, k]⟩ ⟨2, ![k, n]⟩ ⟨2, ![m, n]⟩) none
          (truncf .bf16 x hlt) (truncf .bf16 W hlt)
          (constant (F := Ideal) ⟨2, ![m, n]⟩ .f32 0x00000000#32))
        (broadcastTo ⟨2, ![m, n]⟩ (shapeCast ⟨2, ![1, n]⟩ b hr) hb)
      = addf (Host.dotGeneral (F := Ideal) (⟨[1], [0], [0], [1], [], [], w'⟩ : DotDims ⟨2, ![m, k]⟩ ⟨2, ![k, n]⟩ ⟨2, ![m, n]⟩) none x W)
          (broadcastInDim ⟨2, ![m, n]⟩ ![0, 1] h2 (broadcastInDim ⟨2, ![1, n]⟩ ![1] h1 b)) := by
  funext i
  obtain ⟨p, q, rfl⟩ : ∃ (p : Fin m) (q : Fin n), i = ix2 p q := ⟨i 0, i 1, eq_ix2 i⟩
  exact (kernelLayer_apply w hr hb hlt x W b p q).trans (Cert.LibAffineIdx.hostAffine_apply w' h1 h2 x W b p q).symm

/-! ## The perceptron of this pair of programs -/

open Cert.KernelIdeal (S2048x2 S2048x22 S22x256 S256 S256x256 S256x2 S2 S2048x256 S1x256 S1x2)
open Cert.KernelIdeal.Gen (bitsLt_bf16_f32 shapeCasts_S256_S1x256 broadcasts_S1x256_S2048x256 shapeCasts_S2_S1x2
  broadcasts_S1x2_S2048x2)

/-- The first hidden layer in the matrix-product spelling: tanh (x · W₁ + b₁). -/
def kHidden1 (x4 : FVec Ideal S2048x22 .f32) (x5 : FVec Ideal S22x256 .f32) (x6 : FVec Ideal S256 .f32) :
    FVec Ideal S2048x256 .f32 :=
  tanh (addf
    (matmul Cert.KernelIdeal.dot_S2048x22_S22x256_S2048x256_1_0_0_1_n_n none (truncf .bf16 x4 bitsLt_bf16_f32)
      (truncf .bf16 x5 bitsLt_bf16_f32) (constant (F := Ideal) S2048x256 .f32 0x00000000#32))
    (broadcastTo S2048x256 (shapeCast S1x256 x6 shapeCasts_S256_S1x256) broadcasts_S1x256_S2048x256))

/-- The second hidden layer in the matrix-product spelling: tanh (h₁ · W₂ + b₂). -/
def kHidden2 (x4 : FVec Ideal S2048x22 .f32) (x5 : FVec Ideal S22x256 .f32) (x6 : FVec Ideal S256 .f32)
    (x7 : FVec Ideal S256x256 .f32) (x8 : FVec Ideal S256 .f32) : FVec Ideal S2048x256 .f32 :=
  tanh (addf
    (matmul Cert.KernelIdeal.dot_S2048x256_S256x256_S2048x256_1_0_0_1_n_n none
      (truncf .bf16 (kHidden1 x4 x5 x6) bitsLt_bf16_f32) (truncf .bf16 x7 bitsLt_bf16_f32)
      (constant (F := Ideal) S2048x256 .f32 0x00000000#32))
    (broadcastTo S2048x256 (shapeCast S1x256 x8 shapeCasts_S256_S1x256) broadcasts_S1x256_S2048x256))

/-- The output layer in the matrix-product spelling: h₂ · W₃ + b₃, a 2-vector per row. -/
def kOut (x4 : FVec Ideal S2048x22 .f32) (x5 : FVec Ideal S22x256 .f32) (x6 : FVec Ideal S256 .f32)
    (x7 : FVec Ideal S256x256 .f32) (x8 : FVec Ideal S256 .f32) (x9 : FVec Ideal S256x2 .f32)
    (x10 : FVec Ideal S2 .f32) : FVec Ideal S2048x2 .f32 :=
  addf
    (matmul Cert.KernelIdeal.dot_S2048x256_S256x2_S2048x2_1_0_0_1_n_n none
      (truncf .bf16 (kHidden2 x4 x5 x6 x7 x8) bitsLt_bf16_f32) (truncf .bf16 x9 bitsLt_bf16_f32)
      (constant (F := Ideal) S2048x2 .f32 0x00000000#32))
    (broadcastTo S2048x2 (shapeCast S1x2 x10 shapeCasts_S2_S1x2) broadcasts_S1x2_S2048x2)

/-- The words of the matrix-product program are the three layers above, divided by the resolution, moved by the
    origin, rounded to the nearest even integer and converted: the program's text, with its stages named. -/
theorem k0_pay2_eq (x2 x3 : FVec Ideal S2048x2 .f32) (x4 : FVec Ideal S2048x22 .f32) (x5 : FVec Ideal S22x256 .f32)
    (x6 : FVec Ideal S256 .f32) (x7 : FVec Ideal S256x256 .f32) (x8 : FVec Ideal S256 .f32)
    (x9 : FVec Ideal S256x2 .f32) (x10 : FVec Ideal S2 .f32) :
    Cert.KernelIdeal.Gen.k0_pay2 (F := Ideal) x4 x5 x6 x7 x8 x9 x10 x2 x3
      = fptosi 32 (roundeven (addf (divf (kOut x4 x5 x6 x7 x8 x9 x10) x2) x3)) := rfl

/-- The first hidden layer is the same array in both programs. -/
theorem kHidden1_eq (x4 : FVec Ideal S2048x22 .f32) (x5 : FVec Ideal S22x256 .f32) (x6 : FVec Ideal S256 .f32) :
    kHidden1 x4 x5 x6 = Cert.ReferenceIdeal.ReadP.val_main_v4 (F := Ideal) x4 x5 x6 := by
  unfold kHidden1 Cert.ReferenceIdeal.ReadP.val_main_v4 Cert.ReferenceIdeal.ReadP.val_main_v3
    Cert.ReferenceIdeal.ReadP.val_main_v2 Cert.ReferenceIdeal.ReadP.val_main_v1 Cert.ReferenceIdeal.ReadP.val_main_v0
  exact (congrArg tanh (layer_eq (m := 2048) (k := 22) (n := 256)
    Cert.KernelIdeal.Gen.dot_S2048x22_S22x256_S2048x256_1_0_0_1_n_n_wf
    Cert.ReferenceIdeal.Gen.dot_S2048x22_S22x256_S2048x256_1_0_0_1_n_n_wf
    shapeCasts_S256_S1x256 broadcasts_S1x256_S2048x256 bitsLt_bf16_f32
    Cert.ReferenceIdeal.Gen.bcast_S256_S1x256_1 Cert.ReferenceIdeal.Gen.bcast_S1x256_S2048x256_0_1
    x4 x5 x6)).trans (hostTanh_eq _).symm

/-- The second hidden layer is the same array in both programs: its input, the first hidden layer, already is. -/
theorem kHidden2_eq (x4 : FVec Ideal S2048x22 .f32) (x5 : FVec Ideal S22x256 .f32) (x6 : FVec Ideal S256 .f32)
    (x7 : FVec Ideal S256x256 .f32) (x8 : FVec Ideal S256 .f32) :
    kHidden2 x4 x5 x6 x7 x8 = Cert.ReferenceIdeal.ReadP.val_main_v9 (F := Ideal) x4 x5 x6 x7 x8 := by
  unfold kHidden2 Cert.ReferenceIdeal.ReadP.val_main_v9 Cert.ReferenceIdeal.ReadP.val_main_v8
    Cert.ReferenceIdeal.ReadP.val_main_v7 Cert.ReferenceIdeal.ReadP.val_main_v6 Cert.ReferenceIdeal.ReadP.val_main_v5
  rw [kHidden1_eq]
  exact (congrArg tanh (layer_eq (m := 2048) (k := 256) (n := 256)
    Cert.KernelIdeal.Gen.dot_S2048x256_S256x256_S2048x256_1_0_0_1_n_n_wf
    Cert.ReferenceIdeal.Gen.dot_S2048x256_S256x256_S2048x256_1_0_0_1_n_n_wf
    shapeCasts_S256_S1x256 broadcasts_S1x256_S2048x256 bitsLt_bf16_f32
    Cert.ReferenceIdeal.Gen.bcast_S256_S1x256_1 Cert.ReferenceIdeal.Gen.bcast_S1x256_S2048x256_0_1
    (Cert.ReferenceIdeal.ReadP.val_main_v4 (F := Ideal) x4 x5 x6) x7 x8)).trans (hostTanh_eq _).symm

/-- The output layer is the same array in both programs: its input, the second hidden layer, already is. -/
theorem kOut_eq (x4 : FVec Ideal S2048x22 .f32) (x5 : FVec Ideal S22x256 .f32) (x6 : FVec Ideal S256 .f32)
    (x7 : FVec Ideal S256x256 .f32) (x8 : FVec Ideal S256 .f32) (x9 : FVec Ideal S256x2 .f32)
    (x10 : FVec Ideal S2 .f32) :
    kOut x4 x5 x6 x7 x8 x9 x10 = Cert.ReferenceIdeal.ReadP.val_main_v13 (F := Ideal) x4 x5 x6 x7 x8 x9 x10 := by
  unfold kOut Cert.ReferenceIdeal.ReadP.val_main_v13 Cert.ReferenceIdeal.ReadP.val_main_v12
    Cert.ReferenceIdeal.ReadP.val_main_v11 Cert.ReferenceIdeal.ReadP.val_main_v10
  rw [kHidden2_eq]
  exact layer_eq (m := 2048) (k := 256) (n := 2)
    Cert.KernelIdeal.Gen.dot_S2048x256_S256x2_S2048x2_1_0_0_1_n_n_wf
    Cert.ReferenceIdeal.Gen.dot_S2048x256_S256x2_S2048x2_1_0_0_1_n_n_wf
    shapeCasts_S2_S1x2 broadcasts_S1x2_S2048x2 bitsLt_bf16_f32
    Cert.ReferenceIdeal.Gen.bcast_S2_S1x2_1 Cert.ReferenceIdeal.Gen.bcast_S1x2_S2048x2_0_1
    (Cert.ReferenceIdeal.ReadP.val_main_v9 (F := Ideal) x4 x5 x6 x7 x8) x9 x10

/-- The two programs' arrays of words are equal: the output layers agree, and the quotient, the sum, the rounding
    and the conversion that follow are the same functions in both. -/
theorem cells_eq (x2 x3 : FVec Ideal Cert.KernelIdeal.S2048x2 .f32) (x4 : FVec Ideal Cert.KernelIdeal.S2048x22 .f32)
    (x5 : FVec Ideal Cert.KernelIdeal.S22x256 .f32) (x6 : FVec Ideal Cert.KernelIdeal.S256 .f32)
    (x7 : FVec Ideal Cert.KernelIdeal.S256x256 .f32) (x8 : FVec Ideal Cert.KernelIdeal.S256 .f32)
    (x9 : FVec Ideal Cert.KernelIdeal.S256x2 .f32) (x10 : FVec Ideal Cert.KernelIdeal.S2 .f32) :
    Cert.ReferenceIdeal.ReadP.val_main_v17 (F := Ideal) x2 x3 x4 x5 x6 x7 x8 x9 x10
      = Cert.KernelIdeal.Gen.k0_pay2 (F := Ideal) x4 x5 x6 x7 x8 x9 x10 x2 x3 := by
  rw [k0_pay2_eq, kOut_eq]
  unfold Cert.ReferenceIdeal.ReadP.val_main_v17 Cert.ReferenceIdeal.ReadP.val_main_v16
    Cert.ReferenceIdeal.ReadP.val_main_v15 Cert.ReferenceIdeal.ReadP.val_main_v14
  rw [hostRoundeven_eq, hostDivf_eq]

end Cert.MlpBridge

end
-- ==== Proof.LibGatherRows.lean ====
/-
  A gather that reads one entry from each row of a table. The operand is a table `[R, N]`, the start indices are an
  array `[R, 1, 1]` holding one column number per row, and the result is `[R, 1]`. The row axis is a batching axis on
  both sides, the start index names the column axis, and the column axis is collapsed (slice sizes `[1, 1]`). Entry
  `(r, u)` of the result is the table at row `r` and at the column the start index at `(r, u, 0)` denotes, read as a
  signed integer and clamped into `[0, N - 1]`; when that integer already lies below `N` the clamp does nothing.
-/
import Idealize.ShloMosaic.Lib.ValueIdx

noncomputable section

namespace Cert.LibGatherRows

open Idealize.ShloMosaic Idealize.ShloMosaic.ValueIdx

variable {α : Type}

/-- The dimension numbers of the row-wise gather for a table `[R, N]`, start indices `[R, 1, 1]` and a result
    `[R, 1]`; their side conditions `wf` are decided on literal extents. -/
abbrev rowDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The row-wise gather read at `(r, u)`: the table at row `r`, at the column the start index at `(r, u, 0)` denotes,
    read signed and clamped into `[0, N - 1]`. -/
theorem gather_rows_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) (u : Fin 1) :
    Host.gather (rowDims R N wf) x idx (ix2 r u)
      = x (ix2 r ⟨min (idx (ix3 r u 0)).toInt.toNat (N - 1), by omega⟩) := by
  unfold Host.gather
  congr 1
  funext a
  refine Fin.ext ?_
  match a with
  | ⟨0, _⟩ =>
    show (rowDims R N wf).start (ix2 r u) idx 0 + (rowDims R N wf).batchCoord (ix2 r u) 0
        + (rowDims R N wf).offCoord (ix2 r u) 0 = r.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ (rowDims R N wf).operandBatchingDims from List.mem_singleton.mpr rfl)]
    simp only [Nat.zero_add, Nat.add_zero]
    rfl
  | ⟨1, _⟩ =>
    show (rowDims R N wf).start (ix2 r u) idx 1 + (rowDims R N wf).batchCoord (ix2 r u) 1
        + (rowDims R N wf).offCoord (ix2 r u) 1 = min (idx (ix3 r u 0)).toInt.toNat (N - 1)
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims R N wf).startIndexMap from List.mem_singleton.mpr rfl)]
    have hsi : (rowDims R N wf).siIdx (ix2 r u) ⟨List.idxOf (1 : Fin 2) (rowDims R N wf).startIndexMap,
        List.idxOf_lt_length_iff.2 (List.mem_singleton.mpr rfl)⟩ = ix3 r u 0 := by
      funext b; refine Fin.ext ?_
      match b with
      | ⟨0, _⟩ => rfl
      | ⟨1, _⟩ => rfl
      | ⟨2, _⟩ => rfl
    rw [hsi]
    rfl

/-- When the start index at `(r, u, 0)` denotes a column of the table, the clamp does nothing: the gather reads the
    table at row `r` and that column. -/
theorem gather_rows_apply_of_lt {R N w : Nat}
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) (u : Fin 1)
    (h : (idx (ix3 r u 0)).toInt.toNat < N) :
    Host.gather (rowDims R N wf) x idx (ix2 r u) = x (ix2 r ⟨(idx (ix3 r u 0)).toInt.toNat, h⟩) := by
  rw [gather_rows_apply (by omega) wf x idx r u]
  congr 2
  exact Fin.ext (Nat.min_eq_left (by omega))

end Cert.LibGatherRows

end
-- ==== Proof.RefLookup.lean ====
/-
  The reference program's lookup, read one row at a time. From the array of cell words (entry (r, 0) the grid
  column, entry (r, 1) the grid row) the reference slices each column, clamps it into [0, 199] and forms
  row * 200 + column: the flat cell number of the row. It then reads the table of signed distances at that cell of
  the row with a gather whose guards (a wrap of negative numbers, a mask of in-range numbers, a clamp of the start
  index) never act, because the flat number lies in [0, 39999]. The result is the logistic function of
  100 * (-distance + bias), spelt as 1 / (1 + exp (-(...))).
-/
import proofs.«173205_j69423851372992_1_alg».proof.Proof.ReadP
import proofs.«173205_j69423851372992_1_alg».proof.Proof.Spec
import proofs.«173205_j69423851372992_1_alg».proof.Proof.LibGatherRows
import Idealize.ShloMosaic.Lib.Affine
import Idealize.ShloMosaic.Lib.IdealHost
import Idealize.ShloMosaic.PureOps.Reduce

noncomputable section

namespace Cert.RefLookup

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP

variable (x0 : FVec Ideal Cert.ReferenceIdeal.S2048x40000 .f32) (x2 x3 : FVec Ideal Cert.ReferenceIdeal.S2048x2 .f32)
  (x4 : FVec Ideal Cert.ReferenceIdeal.S2048x22 .f32) (x5 : FVec Ideal Cert.ReferenceIdeal.S22x256 .f32)
  (x6 : FVec Ideal Cert.ReferenceIdeal.S256 .f32) (x7 : FVec Ideal Cert.ReferenceIdeal.S256x256 .f32)
  (x8 : FVec Ideal Cert.ReferenceIdeal.S256 .f32) (x9 : FVec Ideal Cert.ReferenceIdeal.S256x2 .f32)
  (x10 : FVec Ideal Cert.ReferenceIdeal.S2 .f32) (x11 : FVec Ideal Cert.ReferenceIdeal.S1 .f32)

/-! ## The flat cell number -/

/-- The cell words: the one array of the reference every later stage reads. It is never opened here. -/
abbrev cells : Cert.Lookup.Cells := val_main_v17 (F := Ideal) x2 x3 x4 x5 x6 x7 x8 x9 x10

/-- Slicing column 0 and dropping the unit axis reads the cell word at (r, 0). -/
theorem idx_col (r : Fin 2048) : idx_main_v18 (idx_main_v19 (ix1 r)) = ix2 r (0 : Fin 2) := by
  funext a
  match a with
  | ⟨0, _⟩ => exact Fin.ext (Nat.div_one _)
  | ⟨1, _⟩ => rfl

/-- Slicing column 1 and dropping the unit axis reads the cell word at (r, 1). -/
theorem idx_row (r : Fin 2048) : idx_main_v21 (idx_main_v22 (ix1 r)) = ix2 r (1 : Fin 2) := by
  funext a
  match a with
  | ⟨0, _⟩ => exact Fin.ext (Nat.div_one _)
  | ⟨1, _⟩ => rfl

/-- The first clamp: the column word of row r, clamped into [0, 199]. -/
theorem col_clamped (r : Fin 2048) :
    val_main_v20 (F := Ideal) x2 x3 x4 x5 x6 x7 x8 x9 x10 (ix1 r)
      = Cert.Lookup.clampW (cells x2 x3 x4 x5 x6 x7 x8 x9 x10 (ix2 r 0)) := by
  rw [val_main_v20_apply, val_main_call1_v4_apply, val_main_call1_v3_apply, val_main_c_0_apply,
    val_main_call1_v2_apply, val_main_call1_v1_apply, val_main_call1_v0_apply, val_main_c_apply,
    val_main_v19_apply, val_main_v18_apply, idx_col]
  rfl

/-- The second clamp: the row word of row r, clamped into [0, 199]. -/
theorem row_clamped (r : Fin 2048) :
    val_main_v23 (F := Ideal) x2 x3 x4 x5 x6 x7 x8 x9 x10 (ix1 r)
      = Cert.Lookup.clampW (cells x2 x3 x4 x5 x6 x7 x8 x9 x10 (ix2 r 1)) := by
  rw [val_main_v23_apply, val_main_call2_v4_apply, val_main_call2_v3_apply, val_main_c_2_apply,
    val_main_call2_v2_apply, val_main_call2_v1_apply, val_main_call2_v0_apply, val_main_c_1_apply,
    val_main_v22_apply, val_main_v21_apply, idx_row]
  rfl

/-- Row r's flat cell number, broadcast back to a column: clamped row times 200 plus clamped column. -/
theorem flat_apply (r : Fin 2048) (u : Fin 1) :
    val_main_v27 (F := Ideal) x2 x3 x4 x5 x6 x7 x8 x9 x10 (ix2 r u)
      = Cert.Lookup.flatOf (cells x2 x3 x4 x5 x6 x7 x8 x9 x10) r := by
  rw [val_main_v27_apply, show idx_main_v27 (ix2 r u) = ix1 r from funext fun a => by
    match a with
    | ⟨0, _⟩ => rfl]
  rw [val_main_v26_apply, val_main_v25_apply, val_main_v24_apply, val_main_c_3_apply, row_clamped, col_clamped]
  rfl

/-! ## The start index of the gather -/

/-- The start index the gather reads for row r is the row's flat cell number: the reshape to [2048, 1, 1] keeps the
    row, and the wrap "add 40000 when negative" is never taken, because the flat number is not negative. -/
theorem start_apply (r : Fin 2048) (u v : Fin 1) :
    val_main_call3_v5 (F := Ideal) x2 x3 x4 x5 x6 x7 x8 x9 x10 (ix3 r u v)
      = Cert.Lookup.flatOf (cells x2 x3 x4 x5 x6 x7 x8 x9 x10) r := by
  rw [val_main_call3_v5_apply, show idx_main_call3_v5 (ix3 r u v) = ix2 r (0 : Fin 1) from funext fun a => by
    match a with
    | ⟨0, _⟩ =>
      refine Fin.ext ?_
      show ((r.val * 1 + u.val) * 1 + v.val) / 1 = r.val
      have := u.isLt; have := v.isLt; omega
    | ⟨1, _⟩ => rfl]
  rw [val_main_call3_v4_apply, val_main_call3_v1_apply, val_main_call3_v0_apply, val_main_call3_c_apply, flat_apply]
  refine if_neg fun h => ?_
  have hlt := IntOp.cmpi_slt.1 h
  rw [Cert.Lookup.flatOf, Cert.Lookup.flatW_toInt] at hlt
  have e0 : (0#32 : BitVec 32).toInt = 0 := by decide
  omega

/-! ## The in-range mask -/

/-- A fold by "and" over one-bit words that starts at 1 and meets only 1s ends at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- Every entry of the mask before the reduction is 1: the flat cell number is at least 0 and at most 39999. -/
theorem mask_elem (i : S2048x1x1.Idx) :
    val_main_call3_v11 (F := Ideal) x2 x3 x4 x5 x6 x7 x8 x9 x10 i = 1#1 := by
  obtain ⟨r, u, v, rfl⟩ : ∃ (r : Fin 2048) (u v : Fin 1), i = ix3 r u v := ⟨i 0, i 1, i 2, eq_ix3 i⟩
  rw [val_main_call3_v11_apply, val_main_call3_v7_apply, val_main_call3_v10_apply, val_main_call3_v6_apply,
    val_main_call3_c_2_apply, val_main_call3_v9_apply, val_main_call3_v8_apply, val_main_call3_c_1_apply, start_apply]
  have hn := Cert.Lookup.flatW_toNat_lt (cells x2 x3 x4 x5 x6 x7 x8 x9 x10 (ix2 r 1)) (cells x2 x3 x4 x5 x6 x7 x8 x9 x10 (ix2 r 0))
  have hi := Cert.Lookup.flatW_toInt (cells x2 x3 x4 x5 x6 x7 x8 x9 x10 (ix2 r 1)) (cells x2 x3 x4 x5 x6 x7 x8 x9 x10 (ix2 r 0))
  have h1 : IntOp.cmpi .sge (Cert.Lookup.flatOf (cells x2 x3 x4 x5 x6 x7 x8 x9 x10) r) 0#32 = 1#1 :=
    IntOp.cmpi_sge.2 (by
      have e0 : (0#32 : BitVec 32).toInt = 0 := by decide
      rw [Cert.Lookup.flatOf, hi, e0]; omega)
  have h2 : IntOp.cmpi .sle (Cert.Lookup.flatOf (cells x2 x3 x4 x5 x6 x7 x8 x9 x10) r) 39999#32 = 1#1 :=
    IntOp.cmpi_sle.2 (by
      have e1 : (39999#32 : BitVec 32).toInt = 39999 := by decide
      rw [Cert.Lookup.flatOf, hi, e1]; omega)
  rw [h1, h2]
  decide

/-- The mask after the reduction by "and" over the unit axis is 1 at every row. -/
theorem mask_apply (r : Fin 2048) (u : Fin 1) :
    val_main_call3_v12 (F := Ideal) x2 x3 x4 x5 x6 x7 x8 x9 x10 (ix2 r u) = 1#1 := by
  unfold val_main_call3_v12
  rw [Host.reduce_eq_foldl]
  exact foldl_andi_ones _ (mask_elem x2 x3 x4 x5 x6 x7 x8 x9 x10) _

/-! ## The gather -/

/-- Read as a signed integer and then as a natural number, the start index of row r is the flat cell number. -/
theorem start_toNat (r : Fin 2048) (u : Fin 1) :
    (val_main_call3_v5 (F := Ideal) x2 x3 x4 x5 x6 x7 x8 x9 x10 (ix3 r u 0)).toInt.toNat
      = (Cert.Lookup.flatOf (cells x2 x3 x4 x5 x6 x7 x8 x9 x10) r).toNat := by
  rw [start_apply, Cert.Lookup.flatOf, Cert.Lookup.flatW_toInt, Int.toNat_natCast]

/-- So it is a column of the table: below 40000. -/
theorem start_lt (r : Fin 2048) (u : Fin 1) :
    (val_main_call3_v5 (F := Ideal) x2 x3 x4 x5 x6 x7 x8 x9 x10 (ix3 r u 0)).toInt.toNat < 40000 := by
  rw [start_toNat]; exact Cert.Lookup.flatW_toNat_lt _ _

/-- The gather reads row r of the table at the column its start index denotes; the clamp of the start index does
    nothing, because the start index is a column of the table. -/
theorem gathered_at_start (r : Fin 2048) (u : Fin 1) :
    val_main_call3_v13 (F := Ideal) x0 x2 x3 x4 x5 x6 x7 x8 x9 x10 (ix2 r u)
      = x0 (ix2 r ⟨(val_main_call3_v5 (F := Ideal) x2 x3 x4 x5 x6 x7 x8 x9 x10 (ix3 r u 0)).toInt.toNat,
          start_lt x2 x3 x4 x5 x6 x7 x8 x9 x10 r u⟩) :=
  Cert.LibGatherRows.gather_rows_apply_of_lt (R := 2048) (N := 40000)
    Cert.ReferenceIdeal.Gen.gather_S2048x40000_S2048x1x1_S2048x1_n_1_0_0_1_2_11_wf x0
    (val_main_call3_v5 (F := Ideal) x2 x3 x4 x5 x6 x7 x8 x9 x10) r u (start_lt x2 x3 x4 x5 x6 x7 x8 x9 x10 r u)

/-- Two bounded numbers built from equal naturals are equal. -/
theorem fin_mk_congr {n a b : Nat} (e : a = b) (ha : a < n) (hb : b < n) : (⟨a, ha⟩ : Fin n) = ⟨b, hb⟩ := by
  subst e; rfl

/-- That column is the row's cell. -/
theorem start_col (r : Fin 2048) (u : Fin 1) :
    (⟨(val_main_call3_v5 (F := Ideal) x2 x3 x4 x5 x6 x7 x8 x9 x10 (ix3 r u 0)).toInt.toNat, start_lt x2 x3 x4 x5 x6 x7 x8 x9 x10 r u⟩ : Fin 40000)
      = Cert.Lookup.colOf (cells x2 x3 x4 x5 x6 x7 x8 x9 x10) r :=
  fin_mk_congr (start_toNat x2 x3 x4 x5 x6 x7 x8 x9 x10 r u) _ _

/-- The gather reads row r of the table at the row's cell. -/
theorem gathered_apply (r : Fin 2048) (u : Fin 1) :
    val_main_call3_v13 (F := Ideal) x0 x2 x3 x4 x5 x6 x7 x8 x9 x10 (ix2 r u)
      = x0 (ix2 r (Cert.Lookup.colOf (cells x2 x3 x4 x5 x6 x7 x8 x9 x10) r)) := by
  rw [gathered_at_start, start_col]

/-! ## The value looked up, and the logistic function of it -/

/-- The value looked up for row r: the select on the mask keeps the gathered value, the table at the row's cell. -/
theorem looked_up (r : Fin 2048) (u : Fin 1) :
    val_main_v28 (F := Ideal) x0 x2 x3 x4 x5 x6 x7 x8 x9 x10 (ix2 r u)
      = x0 (ix2 r (Cert.Lookup.colOf (cells x2 x3 x4 x5 x6 x7 x8 x9 x10) r)) := by
  rw [val_main_v28_apply, mask_apply, gathered_apply]
  exact select_one _ _

/-- The bias, broadcast to a column, reads its one entry at every row. -/
theorem bias_apply (r : Fin 2048) (u : Fin 1) : val_main_v31 (F := Ideal) x11 (ix2 r u) = x11 (ix1 (0 : Fin 1)) := by
  rw [val_main_v31_apply, val_main_v30_apply,
    show idx_main_v30 (idx_main_v31 (ix2 r u)) = ix1 (0 : Fin 1) from funext fun a => by
      match a with
      | ⟨0, _⟩ => rfl]

/-- Row r of the reference's result: 1 / (1 + exp (-(100 * (-distance + bias)))), the logistic function of
    100 * (-distance + bias). -/
theorem row_out (r : Fin 2048) (u : Fin 1) :
    val_main_v40 (F := Ideal) x0 x2 x3 x4 x5 x6 x7 x8 x9 x10 x11 (ix2 r u)
      = Cert.Lookup.outRow x0 x11 (cells x2 x3 x4 x5 x6 x7 x8 x9 x10) r := by
  rw [val_main_v40_apply, val_main_v39_apply, val_main_cst_5_apply, val_main_v38_apply, val_main_v37_apply,
    val_main_cst_4_apply, val_main_v36_apply, val_main_v35_apply, val_main_v34_apply, val_main_v33_apply,
    val_main_cst_apply, val_main_v32_apply, val_main_v29_apply, looked_up, bias_apply]
  simp only [Ideal.hostDivf_def, Ideal.addf_def, Ideal.hostUnary_exp_def, Ideal.hostNegf_def, Ideal.negf_def,
    Ideal.mulf_def, Ideal.ofBits_def, Ideal.ofBits_one_f32]
  rfl

/-- The reference's result is the shared lookup of the cell words. -/
theorem ref_out :
    Cert.ReferenceIdeal.ReadP.val_main_v40 (F := Ideal) x0 x2 x3 x4 x5 x6 x7 x8 x9 x10 x11
      = Cert.Lookup.out x0 x11 (Cert.ReferenceIdeal.ReadP.val_main_v17 (F := Ideal) x2 x3 x4 x5 x6 x7 x8 x9 x10) := by
  funext i
  obtain ⟨r, u, rfl⟩ : ∃ (r : Fin 2048) (u : Fin 1), i = ix2 r u := ⟨i 0, i 1, eq_ix2 i⟩
  rw [Cert.Lookup.out_apply]
  exact row_out x0 x2 x3 x4 x5 x6 x7 x8 x9 x10 x11 r u

end Cert.RefLookup

end
-- ==== Proof.lean ====
/-
  The proof of the certificate's claim. The kernel runs a small perceptron on every row's input, turns the
  resulting query point into a cell of the row's 200 x 200 distance table (point over resolution plus origin,
  rounded to even, converted to a signed word, clamped into the grid, row * 200 + column), reads the signed distance
  stored there and returns the logistic function of 100 * (-distance + bias). The reference computes the same
  cell by the same operations and reads it by an indexed read along the row; the kernel, in a second launch, reads
  it as the sum over the row of the distances masked by "lane number equals cell number". Over the extended reals a
  change of float format is the identity and a sum with one nonzero term is that term, so the two results agree
  entry by entry: both are the specification's `Cert.Lookup.out` of the distance table, the bias and the cell words,
  and the cell words of the two programs are one array (the perceptron's three layers agree entry by entry).
  The three frame claims are the generated frame certificates and the reference's run; the idealization changed
  no operation, so its claim is trivial.
-/
import proofs.«173205_j69423851372992_1_alg».proof.Defs
import proofs.«173205_j69423851372992_1_alg».proof.Proof.Gen.Kernel
import proofs.«173205_j69423851372992_1_alg».proof.Proof.Gen.Kernel.Skeleton
import proofs.«173205_j69423851372992_1_alg».proof.Proof.Gen.Kernel.Launch
import proofs.«173205_j69423851372992_1_alg».proof.Proof.Gen.Kernel.Points
import proofs.«173205_j69423851372992_1_alg».proof.Proof.Gen.Kernel.Frame
import proofs.«173205_j69423851372992_1_alg».proof.Proof.Gen.KernelIdeal
import proofs.«173205_j69423851372992_1_alg».proof.Proof.Gen.KernelIdeal.Skeleton
import proofs.«173205_j69423851372992_1_alg».proof.Proof.Gen.KernelIdeal.Launch
import proofs.«173205_j69423851372992_1_alg».proof.Proof.Gen.KernelIdeal.Points
import proofs.«173205_j69423851372992_1_alg».proof.Proof.Gen.KernelIdeal.Frame
import proofs.«173205_j69423851372992_1_alg».proof.Proof.Gen.ReferenceIdeal
import proofs.«173205_j69423851372992_1_alg».proof.Proof.Gen.Pre_finite_inputs
import proofs.«173205_j69423851372992_1_alg».proof.Proof.RunP
import proofs.«173205_j69423851372992_1_alg».proof.Proof.KernelValue
import proofs.«173205_j69423851372992_1_alg».proof.Proof.MlpBridge
import proofs.«173205_j69423851372992_1_alg».proof.Proof.RefLookup
import Idealize.ShloMosaic.Adequacy
import Idealize.ShloMosaic.Init

noncomputable section

namespace Cert.Proof

open Idealize.ShloMosaic Idealize.SL.Sem

/-- The word-level kernel runs and leaves its arguments: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments: its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the specification's lookup of the distance
    table, the bias and the cell words; the reference's cell words are the kernel's. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, -, h2, h3, h4, h5, h6, h7, h8, h9, h10, h11⟩ := hagree c
  rw [Cert.RefLookup.ref_out, Cert.MlpBridge.cells_eq, h0, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
